-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x320000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S50000x1 : Shape := ⟨2, ![50000, 1]⟩
abbrev S2000x256 : Shape := ⟨2, ![2000, 256]⟩
abbrev S2000x1 : Shape := ⟨2, ![2000, 1]⟩
abbrev S370000x256 : Shape := ⟨2, ![370000, 256]⟩
abbrev S1x256 : Shape := ⟨2, ![1, 256]⟩
abbrev S50000x128 : Shape := ⟨2, ![50000, 128]⟩
abbrev S2000x128 : Shape := ⟨2, ![2000, 128]⟩
abbrev S370000x128 : Shape := ⟨2, ![370000, 128]⟩
abbrev S1x128 : Shape := ⟨2, ![1, 128]⟩

abbrev nBuf : Space → Nat
  | .hbm => 70
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x320000, .i32⟩
  | .hbm, ⟨8, _⟩ => ⟨S320000, .i32⟩
  | .hbm, ⟨9, _⟩ => ⟨S370000, .i32⟩
  | .hbm, ⟨10, _⟩ => ⟨S1x320000, .i32⟩
  | .hbm, ⟨11, _⟩ => ⟨S320000, .i32⟩
  | .hbm, ⟨12, _⟩ => ⟨S370000, .i32⟩
  | .hbm, ⟨13, _⟩ => ⟨S_, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .bf16⟩
  | .hbm, ⟨29, _⟩ => ⟨S_, .i32⟩
  | .hbm, ⟨30, _⟩ => ⟨S370000, .i32⟩
  | .hbm, ⟨31, _⟩ => ⟨S370000, .i1⟩
  | .hbm, ⟨32, _⟩ => ⟨S_, .i32⟩
  | .hbm, ⟨33, _⟩ => ⟨S370000, .i32⟩
  | .hbm, ⟨34, _⟩ => ⟨S370000, .i32⟩
  | .hbm, ⟨35, _⟩ => ⟨S370000, .i32⟩
  | .hbm, ⟨36, _⟩ => ⟨S370000x1, .i32⟩
  | .hbm, ⟨37, _⟩ => ⟨S370000x256, .bf16⟩
  | .hbm, ⟨38, _⟩ => ⟨S370000x256, .f32⟩
  | .hbm, ⟨39, _⟩ => ⟨S_, .f32⟩
  | .hbm, ⟨40, _⟩ => ⟨S50000x256, .f32⟩
  | .hbm, ⟨41, _⟩ => ⟨S370000x1, .i32⟩
  | .hbm, ⟨42, _⟩ => ⟨S50000x256, .f32⟩
  | .hbm, ⟨43, _⟩ => ⟨S50000x1, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S50000x128, .bf16⟩
  | .hbm, ⟨50, _⟩ => ⟨S_, .i32⟩
  | .hbm, ⟨51, _⟩ => ⟨S370000, .i32⟩
  | .hbm, ⟨52, _⟩ => ⟨S370000, .i1⟩
  | .hbm, ⟨53, _⟩ => ⟨S_, .i32⟩
  | .hbm, ⟨54, _⟩ => ⟨S370000, .i32⟩
  | .hbm, ⟨55, _⟩ => ⟨S370000, .i32⟩
  | .hbm, ⟨56, _⟩ => ⟨S370000, .i32⟩
  | .hbm, ⟨57, _⟩ => ⟨S370000x1, .i32⟩
  | .hbm, ⟨58, _⟩ => ⟨S370000x128, .bf16⟩
  | .hbm, ⟨59, _⟩ => ⟨S370000x128, .f32⟩
  | .hbm, ⟨60, _⟩ => ⟨S_, .f32⟩
  | .hbm, ⟨61, _⟩ => ⟨S50000x128, .f32⟩
  | .hbm, ⟨62, _⟩ => ⟨S370000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S256x128, .f32⟩
  | .local _ .vmem, ⟨10, _⟩ => ⟨S2000x1, .f32⟩
  | .local _ .vmem, ⟨11, _⟩ => ⟨S2000x1, .f32⟩
  | .local _ .vmem, ⟨12, _⟩ => ⟨S2000x128, .bf16⟩
  | .local _ .vmem, ⟨13, _⟩ => ⟨S2000x128, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S370000x1_S370000_n_0_0_1_wf : ScatterDims.WF S50000 S370000x1 S370000 [] [0] [0] 1
  dot_S2000x256_S256x256_S2000x256_1_0_0_1_n_n_wf : DotDims.WF S2000x256 S256x256 S2000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S2000x256_S256x128_S2000x128_1_0_0_1_n_n_wf : DotDims.WF S2000x256 S256x128 S2000x128 [1] [0] [0] [1] [] []
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S370000x256 : Shape := ⟨2, ![370000, 256]⟩
abbrev S1x256 : Shape := ⟨2, ![1, 256]⟩
abbrev S50000x128 : Shape := ⟨2, ![50000, 128]⟩
abbrev S370000x128 : Shape := ⟨2, ![370000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x320000, .i32⟩
  | 2 => ⟨S256x256, .f32⟩
  | 3 => ⟨S256, .f32⟩
  | 4 => ⟨S256x128, .f32⟩
  | 5 => ⟨S128, .f32⟩
  | 6 => ⟨S50000x256, .f32⟩
  | 7 => ⟨S50000, .i32⟩
  | 8 => ⟨S1x320000, .i32⟩
  | 9 => ⟨S320000, .i32⟩
  | 10 => ⟨S370000, .i32⟩
  | 11 => ⟨S1x320000, .i32⟩
  | 12 => ⟨S320000, .i32⟩
  | 13 => ⟨S370000, .i32⟩
  | 14 => ⟨S_, .f32⟩
  | 15 => ⟨S370000, .f32⟩
  | 16 => ⟨S_, .f32⟩
  | 17 => ⟨S50000, .f32⟩
  | 18 => ⟨S370000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S370000, .i32⟩
  | 30 => ⟨S370000, .i1⟩
  | 31 => ⟨S_, .i32⟩
  | 32 => ⟨S370000, .i32⟩
  | 33 => ⟨S370000, .i32⟩
  | 34 => ⟨S370000, .i32⟩
  | 35 => ⟨S370000x1, .i32⟩
  | 36 => ⟨S370000, .f32⟩
  | 37 => ⟨S_, .i32⟩
  | 38 => ⟨S370000, .i32⟩
  | 39 => ⟨S370000, .i1⟩
  | 40 => ⟨S_, .i32⟩
  | 41 => ⟨S370000, .i32⟩
  | 42 => ⟨S370000, .i32⟩
  | 43 => ⟨S370000, .i32⟩
  | 44 => ⟨S370000x1, .i32⟩
  | 45 => ⟨S370000, .f32⟩
  | 46 => ⟨S370000, .f32⟩
  | 47 => ⟨S_, .i32⟩
  | 48 => ⟨S370000, .i32⟩
  | 49 => ⟨S370000, .i1⟩
  | 50 => ⟨S_, .i32⟩
  | 51 => ⟨S370000, .i32⟩
  | 52 => ⟨S370000, .i32⟩
  | 53 => ⟨S370000, .i32⟩
  | 54 => ⟨S370000x1, .i32⟩
  | 55 => ⟨S370000x256, .f32⟩
  | 56 => ⟨S370000x1, .f32⟩
  | 57 => ⟨S370000x256, .f32⟩
  | 58 => ⟨S370000x256, .f32⟩
  | 59 => ⟨S_, .f32⟩
  | 60 => ⟨S50000x256, .f32⟩
  | 61 => ⟨S370000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S50000, .i32⟩
  | 71 => ⟨S1x320000, .i32⟩
  | 72 => ⟨S320000, .i32⟩
  | 73 => ⟨S370000, .i32⟩
  | 74 => ⟨S1x320000, .i32⟩
  | 75 => ⟨S320000, .i32⟩
  | 76 => ⟨S370000, .i32⟩
  | 77 => ⟨S_, .f32⟩
  | 78 => ⟨S370000, .f32⟩
  | 79 => ⟨S_, .f32⟩
  | 80 => ⟨S50000, .f32⟩
  | 81 => ⟨S370000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S370000, .i32⟩
  | 93 => ⟨S370000, .i1⟩
  | 94 => ⟨S_, .i32⟩
  | 95 => ⟨S370000, .i32⟩
  | 96 => ⟨S370000, .i32⟩
  | 97 => ⟨S370000, .i32⟩
  | 98 => ⟨S370000x1, .i32⟩
  | 99 => ⟨S370000, .f32⟩
  | 100 => ⟨S_, .i32⟩
  | 101 => ⟨S370000, .i32⟩
  | 102 => ⟨S370000, .i1⟩
  | 103 => ⟨S_, .i32⟩
  | 104 => ⟨S370000, .i32⟩
  | 105 => ⟨S370000, .i32⟩
  | 106 => ⟨S370000, .i32⟩
  | 107 => ⟨S370000x1, .i32⟩
  | 108 => ⟨S370000, .f32⟩
  | 109 => ⟨S370000, .f32⟩
  | 110 => ⟨S_, .i32⟩
  | 111 => ⟨S370000, .i32⟩
  | 112 => ⟨S370000, .i1⟩
  | 113 => ⟨S_, .i32⟩
  | 114 => ⟨S370000, .i32⟩
  | 115 => ⟨S370000, .i32⟩
  | 116 => ⟨S370000, .i32⟩
  | 117 => ⟨S370000x1, .i32⟩
  | 118 => ⟨S370000x128, .f32⟩
  | 119 => ⟨S370000x1, .f32⟩
  | 120 => ⟨S370000x128, .f32⟩
  | 121 => ⟨S370000x128, .f32⟩
  | 122 => ⟨S_, .f32⟩
  | 123 => ⟨S50000x128, .f32⟩
  | 124 => ⟨S370000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S370000x1_S370000x128_0_1 : S370000x1.BroadcastsInDim S370000x128 (![0, 1] : Fin 2 → Fin S370000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S50000x256_S256x128_S50000x128_1_0_0_1_n_n_wf : DotDims.WF S50000x256 S256x128 S50000x128 [1] [0] [0] [1] [] []
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf

class Facts : Prop extends Facts₀ where

variable [Facts]
-- ==== Proof.KRun.lean ====
/-
  The run of the kernel's program with its result named: from any launch memory with zero counters, every weakly
  fair execution of @main on the TensorCores terminates without fault, and in every final state the result buffer
  holds the last boundary's contents `W7` (the fold of buffer contents through the seven segments) while each of the
  six argument arrays holds what it held at launch.
-/
import proofs.«155882_j32315333935770_2_alg».proof.Proof.Gen.KernelIdeal.Frame
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the launch over the seven segments; the last thread state says every unscoped
    buffer ends at the last boundary's contents, which is read at the result buffer as it stands and at each argument
    back through the fold to the launch memory. -/
theorem run_value : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.KHostTerms.lean ====
/-
  The host operations of the kernel's program around its two matrix products, as whole-array terms of the argument
  arrays: the destination and source index columns (the edge list with one self-loop per node appended), the degree
  count, the per-node factor `dinv` (the reciprocal square root of a positive degree, zero otherwise), the wrap of a
  negative index, and the aggregation of one layer: gather the source rows, sum them into their destination rows,
  scale row `n` by `dinv n` and add the bias row.
-/
import proofs.«155882_j32315333935770_2_alg».proof.Proof.Gen.KernelIdeal
import Idealize.ShloMosaic.PureOps.Ideal

noncomputable section

namespace Cert.KernelIdeal.HostTerms

open Cert.KernelIdeal Cert.KernelIdeal.Facts₀ Idealize.ShloMosaic

/-- An array of shape `S` and element type `e` at the ideal values. -/
abbrev Arr (S : Shape) (e : EltTy) : Type := (⟨S, e⟩ : BufTy).Contents (Elt Ideal)

/-- The destinations. -/
def rowT (x1 : Arr S2x320000 .i32) : Arr S370000 .i32 :=
  concatenate S370000 0 [⟨S320000, shapeCast S320000 (extractStridedSlice S1x320000 ![0, 0] x1 slices_S2x320000_S1x320000_0_0) shapeCasts_S1x320000_S320000⟩,
    ⟨S50000, iotaInDim S50000 32 0⟩] concatenates_S320000_S50000_S370000_d0

/-- The sources. -/
def colT (x1 : Arr S2x320000 .i32) : Arr S370000 .i32 :=
  concatenate S370000 0 [⟨S320000, shapeCast S320000 (extractStridedSlice S1x320000 ![1, 0] x1 slices_S2x320000_S1x320000_1_0) shapeCasts_S1x320000_S320000⟩,
    ⟨S50000, iotaInDim S50000 32 0⟩] concatenates_S320000_S50000_S370000_d0

/-- An index column `[R] → [R, 1]`. -/
def asCol (v : Arr S370000 .i32) : Arr S370000x1 .i32 := broadcastInDim S370000x1 ![0] bcast_S370000_S370000x1_0 v

/-- The number of edges into each node, counted in floats. -/
def degT (x1 : Arr S2x320000 .i32) : Arr S50000 .f32 :=
  Host.scatterAdd (F := Ideal) (φ := .f32) scatter_S50000_S370000x1_S370000_n_0_0_1
    (broadcastInDim S50000 ![] bcast_S_S50000 (constant (F := Ideal) S_ .f32 0x00000000#32))
    (asCol (rowT x1))
    (broadcastInDim S370000 ![] bcast_S_S370000 (constant (F := Ideal) S_ .f32 0x3F800000#32))

/-- The per-node factor: `1 / √deg` where the degree is positive, zero elsewhere. -/
def dinvT (x1 : Arr S2x320000 .i32) : Arr S50000 .f32 :=
  select (cmpf (F := Ideal) (φ := .f32) .ogt (degT x1) (broadcastInDim S50000 ![] bcast_S_S50000 (constant (F := Ideal) S_ .f32 0x00000000#32)))
    (Host.rsqrt (F := Ideal) (φ := .f32) (degT x1))
    (broadcastInDim S50000 ![] bcast_S_S50000 (id (constant (F := Ideal) S_ .f32 0x00000000#32)))

/-- The factor as a column `[N, 1]`: the operand of both matrix-product kernels. -/
def dinvCol (x1 : Arr S2x320000 .i32) : Arr S50000x1 .f32 :=
  broadcastInDim S50000x1 ![0] bcast_S50000_S50000x1_0 (dinvT x1)

/-- A negative index counts from the end: `N` is added to it. -/
def wrapT (v : Arr S370000 .i32) : Arr S370000 .i32 :=
  select (cmpi .slt v (broadcastInDim S370000 ![] bcast_S_S370000 (constantI S_ 32 0#32)))
    (addi v (broadcastInDim S370000 ![] bcast_S_S370000 (constantI S_ 32 50000#32))) v

/-- Layer 1's aggregation of the scaled product `h` (`[N, 256]`, stored in the narrow format): the source rows
    gathered, summed into their destinations, row `n` scaled by `dinv n`, the bias row added. -/
def agg256 (x1 : Arr S2x320000 .i32) (b : Arr S256 .f32) (h : Arr S50000x256 .bf16) : Arr S50000x256 .f32 :=
  addf (mulf (broadcastInDim S50000x256 ![0, 1] bcast_S50000x1_S50000x256_0_1 (dinvCol x1))
      (Host.scatterAdd (F := Ideal) (φ := .f32) scatter_S50000x256_S370000x1_S370000x256_1_0_0_1
        (broadcastInDim S50000x256 ![] bcast_S_S50000x256 (constant (F := Ideal) S_ .f32 0x00000000#32))
        (asCol (rowT x1))
        (extf .f32 (Host.gather gather_S50000x256_S370000x1_S370000x256_1_0_n_n_0_1_1256 h (asCol (wrapT (colT x1)))) bitsLt_bf16_f32)))
    (broadcastInDim S50000x256 ![0, 1] bcast_S1x256_S50000x256_0_1 (broadcastInDim S1x256 ![1] bcast_S256_S1x256_1 b))

/-- Layer 2's aggregation, the same over 128 columns. -/
def agg128 (x1 : Arr S2x320000 .i32) (b : Arr S128 .f32) (h : Arr S50000x128 .bf16) : Arr S50000x128 .f32 :=
  addf (mulf (broadcastInDim S50000x128 ![0, 1] bcast_S50000x1_S50000x128_0_1 (dinvCol x1))
      (Host.scatterAdd (F := Ideal) (φ := .f32) scatter_S50000x128_S370000x1_S370000x128_1_0_0_1
        (broadcastInDim S50000x128 ![] bcast_S_S50000x128 (constant (F := Ideal) S_ .f32 0x00000000#32))
        (asCol (rowT x1))
        (extf .f32 (Host.gather gather_S50000x128_S370000x1_S370000x128_1_0_n_n_0_1_1128 h (asCol (wrapT (colT x1)))) bitsLt_bf16_f32)))
    (broadcastInDim S50000x128 ![0, 1] bcast_S1x128_S50000x128_0_1 (broadcastInDim S1x128 ![1] bcast_S128_S1x128_1 b))

end Cert.KernelIdeal.HostTerms

end
-- ==== Proof.KFold.lean ====
/-
  The fold of buffer contents through the seven segments of the kernel's program, walked back. Each boundary's
  contents are the previous boundary's with one stretch of host operations applied, or with one matrix-product
  region's output array replaced by what the region leaves. Read at a buffer, the fold stops at the last segment that
  wrote it: a stretch that does not write a buffer keeps it, a region keeps every buffer but its output array, and a
  stretch that writes a buffer leaves there its operations applied to what it read. So the result is the second
  layer's aggregation of the second region's output, that region's first input is the first layer's aggregation of
  the first region's output, both regions take the per-node factor column, and the argument arrays stay as launched.
-/
import proofs.«155882_j32315333935770_2_alg».proof.Proof.Gen.KernelIdeal.Frame
import proofs.«155882_j32315333935770_2_alg».proof.Proof.KHostTerms
import Idealize.ShloMosaic.Lib.StableHlo.Run

set_option maxRecDepth 16384

noncomputable section

namespace Cert.KernelIdeal.Run

open Cert.KernelIdeal Cert.KernelIdeal.Facts₀ Cert.KernelIdeal.HostTerms
open Cert.KernelIdeal.Gen (hostOps0 hostOps0_1 hostOps0_2 hostOps1 hostOps2 W0 W1 W2 W3 W4 W5 W6 W7 V3 V5 dat0 dat1
  W4_arr W4_of_ne W6_arr W6_of_ne A_eq0)
open Idealize.ShloMosaic Idealize.ShloMosaic.TcCoe Idealize.SL.Sem

/-! ## A stretch keeps a buffer none of its operations writes -/

section Keeps

variable {F : FTy → Type} [FloatOps F]

/-- No operation of the named stretch writes the buffer in the goal: each operation's one written buffer is another
    reference. -/
local macro "untouched " ops:ident : tactic => `(tactic|
  (refine StableHlo.after_of_forall_not_mem _ _ (List.forall_iff_forall_mem.mp ?_)
   simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

theorem h0_keeps_arg0 (Wp : Valuation τ sig (Elt F)) :
    StableHlo.after hostOps0 Wp (Proc.devRef .tc main_arg0) = Wp (Proc.devRef .tc main_arg0) := by
  untouched hostOps0
theorem h0_keeps_arg2 (Wp : Valuation τ sig (Elt F)) :
    StableHlo.after hostOps0 Wp (Proc.devRef .tc main_arg2) = Wp (Proc.devRef .tc main_arg2) := by
  untouched hostOps0
theorem h0_keeps_arg3 (Wp : Valuation τ sig (Elt F)) :
    StableHlo.after hostOps0 Wp (Proc.devRef .tc main_arg3) = Wp (Proc.devRef .tc main_arg3) := by
  untouched hostOps0
theorem h0_keeps_arg4 (Wp : Valuation τ sig (Elt F)) :
    StableHlo.after hostOps0 Wp (Proc.devRef .tc main_arg4) = Wp (Proc.devRef .tc main_arg4) := by
  untouched hostOps0
theorem h0_keeps_arg5 (Wp : Valuation τ sig (Elt F)) :
    StableHlo.after hostOps0 Wp (Proc.devRef .tc main_arg5) = Wp (Proc.devRef .tc main_arg5) := by
  untouched hostOps0
theorem h01_keeps_v3 (Wp : Valuation τ sig (Elt F)) :
    StableHlo.after hostOps0_1 Wp (Proc.devRef .tc main_v3) = Wp (Proc.devRef .tc main_v3) := by
  untouched hostOps0_1
theorem h01_keeps_v6 (Wp : Valuation τ sig (Elt F)) :
    StableHlo.after hostOps0_1 Wp (Proc.devRef .tc main_v6) = Wp (Proc.devRef .tc main_v6) := by
  untouched hostOps0_1
theorem h01_keeps_arg0 (Wp : Valuation τ sig (Elt F)) :
    StableHlo.after hostOps0_1 Wp (Proc.devRef .tc main_arg0) = Wp (Proc.devRef .tc main_arg0) := by
  untouched hostOps0_1
theorem h01_keeps_arg2 (Wp : Valuation τ sig (Elt F)) :
    StableHlo.after hostOps0_1 Wp (Proc.devRef .tc main_arg2) = Wp (Proc.devRef .tc main_arg2) := by
  untouched hostOps0_1
theorem h01_keeps_arg3 (Wp : Valuation τ sig (Elt F)) :
    StableHlo.after hostOps0_1 Wp (Proc.devRef .tc main_arg3) = Wp (Proc.devRef .tc main_arg3) := by
  untouched hostOps0_1
theorem h01_keeps_arg4 (Wp : Valuation τ sig (Elt F)) :
    StableHlo.after hostOps0_1 Wp (Proc.devRef .tc main_arg4) = Wp (Proc.devRef .tc main_arg4) := by
  untouched hostOps0_1
theorem h01_keeps_arg5 (Wp : Valuation τ sig (Elt F)) :
    StableHlo.after hostOps0_1 Wp (Proc.devRef .tc main_arg5) = Wp (Proc.devRef .tc main_arg5) := by
  untouched hostOps0_1
theorem h02_keeps_v3 (Wp : Valuation τ sig (Elt F)) :
    StableHlo.after hostOps0_2 Wp (Proc.devRef .tc main_v3) = Wp (Proc.devRef .tc main_v3) := by
  untouched hostOps0_2
theorem h02_keeps_v6 (Wp : Valuation τ sig (Elt F)) :
    StableHlo.after hostOps0_2 Wp (Proc.devRef .tc main_v6) = Wp (Proc.devRef .tc main_v6) := by
  untouched hostOps0_2
theorem h02_keeps_v14 (Wp : Valuation τ sig (Elt F)) :
    StableHlo.after hostOps0_2 Wp (Proc.devRef .tc main_v14) = Wp (Proc.devRef .tc main_v14) := by
  untouched hostOps0_2
theorem h02_keeps_arg0 (Wp : Valuation τ sig (Elt F)) :
    StableHlo.after hostOps0_2 Wp (Proc.devRef .tc main_arg0) = Wp (Proc.devRef .tc main_arg0) := by
  untouched hostOps0_2
theorem h02_keeps_arg2 (Wp : Valuation τ sig (Elt F)) :
    StableHlo.after hostOps0_2 Wp (Proc.devRef .tc main_arg2) = Wp (Proc.devRef .tc main_arg2) := by
  untouched hostOps0_2
theorem h02_keeps_arg3 (Wp : Valuation τ sig (Elt F)) :
    StableHlo.after hostOps0_2 Wp (Proc.devRef .tc main_arg3) = Wp (Proc.devRef .tc main_arg3) := by
  untouched hostOps0_2
theorem h02_keeps_arg4 (Wp : Valuation τ sig (Elt F)) :
    StableHlo.after hostOps0_2 Wp (Proc.devRef .tc main_arg4) = Wp (Proc.devRef .tc main_arg4) := by
  untouched hostOps0_2
theorem h02_keeps_arg5 (Wp : Valuation τ sig (Elt F)) :
    StableHlo.after hostOps0_2 Wp (Proc.devRef .tc main_arg5) = Wp (Proc.devRef .tc main_arg5) := by
  untouched hostOps0_2
theorem h1_keeps_v3 (Wp : Valuation τ sig (Elt F)) :
    StableHlo.after hostOps1 Wp (Proc.devRef .tc main_v3) = Wp (Proc.devRef .tc main_v3) := by
  untouched hostOps1
theorem h1_keeps_v6 (Wp : Valuation τ sig (Elt F)) :
    StableHlo.after hostOps1 Wp (Proc.devRef .tc main_v6) = Wp (Proc.devRef .tc main_v6) := by
  untouched hostOps1
theorem h1_keeps_v14 (Wp : Valuation τ sig (Elt F)) :
    StableHlo.after hostOps1 Wp (Proc.devRef .tc main_v14) = Wp (Proc.devRef .tc main_v14) := by
  untouched hostOps1
theorem h1_keeps_v15 (Wp : Valuation τ sig (Elt F)) :
    StableHlo.after hostOps1 Wp (Proc.devRef .tc main_v15) = Wp (Proc.devRef .tc main_v15) := by
  untouched hostOps1
theorem h1_keeps_arg4 (Wp : Valuation τ sig (Elt F)) :
    StableHlo.after hostOps1 Wp (Proc.devRef .tc main_arg4) = Wp (Proc.devRef .tc main_arg4) := by
  untouched hostOps1
theorem h1_keeps_arg5 (Wp : Valuation τ sig (Elt F)) :
    StableHlo.after hostOps1 Wp (Proc.devRef .tc main_arg5) = Wp (Proc.devRef .tc main_arg5) := by
  untouched hostOps1

end Keeps

/-! ## What a stretch leaves at a buffer it writes, from arbitrary contents -/

section Writes

/-- One layer's aggregation over 256 columns, of arbitrary destination and source index vectors and an arbitrary
    per-node factor: `agg256` is this at the program's own index vectors and factor. -/
def aggOf256 (row col : Arr S370000 .i32) (dinv : Arr S50000 .f32) (b : Arr S256 .f32) (h : Arr S50000x256 .bf16) :
    Arr S50000x256 .f32 :=
  addf (mulf (broadcastInDim S50000x256 ![0, 1] bcast_S50000x1_S50000x256_0_1 (broadcastInDim S50000x1 ![0] bcast_S50000_S50000x1_0 dinv))
      (Host.scatterAdd (F := Ideal) scatter_S50000x256_S370000x1_S370000x256_1_0_0_1
        (broadcastInDim S50000x256 ![] bcast_S_S50000x256 (constant (F := Ideal) S_ .f32 0x00000000#32))
        (asCol row)
        (extf .f32 (Host.gather gather_S50000x256_S370000x1_S370000x256_1_0_n_n_0_1_1256 h (asCol (wrapT col))) bitsLt_bf16_f32)))
    (broadcastInDim S50000x256 ![0, 1] bcast_S1x256_S50000x256_0_1 (broadcastInDim S1x256 ![1] bcast_S256_S1x256_1 b))

/-- The same over 128 columns. -/
def aggOf128 (row col : Arr S370000 .i32) (dinv : Arr S50000 .f32) (b : Arr S128 .f32) (h : Arr S50000x128 .bf16) :
    Arr S50000x128 .f32 :=
  addf (mulf (broadcastInDim S50000x128 ![0, 1] bcast_S50000x1_S50000x128_0_1 (broadcastInDim S50000x1 ![0] bcast_S50000_S50000x1_0 dinv))
      (Host.scatterAdd (F := Ideal) scatter_S50000x128_S370000x1_S370000x128_1_0_0_1
        (broadcastInDim S50000x128 ![] bcast_S_S50000x128 (constant (F := Ideal) S_ .f32 0x00000000#32))
        (asCol row)
        (extf .f32 (Host.gather gather_S50000x128_S370000x1_S370000x128_1_0_n_n_0_1_1128 h (asCol (wrapT col))) bitsLt_bf16_f32)))
    (broadcastInDim S50000x128 ![0, 1] bcast_S1x128_S50000x128_0_1 (broadcastInDim S1x128 ![1] bcast_S128_S1x128_1 b))

theorem agg256_eq (x1 : Arr S2x320000 .i32) (b : Arr S256 .f32) (h : Arr S50000x256 .bf16) :
    agg256 x1 b h = aggOf256 (rowT x1) (colT x1) (dinvT x1) b h := rfl

theorem agg128_eq (x1 : Arr S2x320000 .i32) (b : Arr S128 .f32) (h : Arr S50000x128 .bf16) :
    agg128 x1 b h = aggOf128 (rowT x1) (colT x1) (dinvT x1) b h := rfl

variable (Wp : Valuation τ sig (Elt Ideal))

/-- The first stretch leaves the destination index vector of the launched edge list. -/
theorem h0_v3 : StableHlo.after (hostOps0 (F := Ideal)) Wp (Proc.devRef .tc main_v3) = rowT (Wp (Proc.devRef .tc main_arg1)) := by
  dsimp only [hostOps0]
  after_results
  rfl

/-- … and the source index vector. -/
theorem h0_v6 : StableHlo.after (hostOps0 (F := Ideal)) Wp (Proc.devRef .tc main_v6) = colT (Wp (Proc.devRef .tc main_arg1)) := by
  dsimp only [hostOps0]
  after_results
  rfl

/-- … the test "the degree is positive", -/
theorem h0_v12 : StableHlo.after (hostOps0 (F := Ideal)) Wp (Proc.devRef .tc main_v12)
    = cmpf .ogt (degT (Wp (Proc.devRef .tc main_arg1))) (broadcastInDim S50000 ![] bcast_S_S50000 (constant (F := Ideal) S_ .f32 0x00000000#32)) := by
  dsimp only [hostOps0]
  after_results
  rfl

/-- … the reciprocal square root of the degree, -/
theorem h0_v13 : StableHlo.after (hostOps0 (F := Ideal)) Wp (Proc.devRef .tc main_v13) = (Host.rsqrt (F := Ideal) (s := S50000) (φ := .f32) (degT (Wp (Proc.devRef .tc main_arg1))) : Arr S50000 .f32) := by
  dsimp only [hostOps0]
  after_results
  rfl

/-- … and the zero the factor takes where the degree is not positive. -/
theorem h0_cst_2 : StableHlo.after (hostOps0 (F := Ideal)) Wp (Proc.devRef .tc main_cst_2) = constant (F := Ideal) S_ .f32 0x00000000#32 := by
  dsimp only [hostOps0]
  after_results

/-- The second stretch selects between the two. -/
theorem h01_v14 : StableHlo.after (hostOps0_1 (F := Ideal)) Wp (Proc.devRef .tc main_v14)
    = select (Wp (Proc.devRef .tc main_v12)) (Wp (Proc.devRef .tc main_v13))
        (broadcastInDim S50000 ![] bcast_S_S50000 (id (Wp (Proc.devRef .tc main_cst_2)))) := by
  dsimp only [hostOps0_1]
  after_results
  rfl

/-- The third stretch makes the factor a column. -/
theorem h02_v15 : StableHlo.after (hostOps0_2 (F := Ideal)) Wp (Proc.devRef .tc main_v15)
    = broadcastInDim S50000x1 ![0] bcast_S50000_S50000x1_0 (Wp (Proc.devRef .tc main_v14)) := by
  dsimp only [hostOps0_2]
  after_results

/-- The stretch between the regions leaves the first layer's aggregation of the first region's output array. -/
theorem h1_v33 : StableHlo.after (hostOps1 (F := Ideal)) Wp (Proc.devRef .tc main_v33)
    = aggOf256 (Wp (Proc.devRef .tc main_v3)) (Wp (Proc.devRef .tc main_v6)) (Wp (Proc.devRef .tc main_v14))
        (Wp (Proc.devRef .tc main_arg3)) (Wp (Proc.devRef .tc main_v16)) := by
  dsimp only [hostOps1]
  after_results_simp
  rfl

/-- The last stretch leaves the second layer's aggregation of the second region's output array. -/
theorem h2_v51 : StableHlo.after (hostOps2 (F := Ideal)) Wp (Proc.devRef .tc main_v51)
    = aggOf128 (Wp (Proc.devRef .tc main_v3)) (Wp (Proc.devRef .tc main_v6)) (Wp (Proc.devRef .tc main_v14))
        (Wp (Proc.devRef .tc main_arg5)) (Wp (Proc.devRef .tc main_v34)) := by
  dsimp only [hostOps2]
  after_results_simp
  rfl

end Writes

/-! ## The fold read at a buffer -/

section Walks

variable (m : (ℓ : Loc nD τ sig) → Buf (Elt Ideal) ℓ) (ρ : Dev nD → PrngReg) (c : Dev nD)

/-! ### The argument arrays a region reads or the later stretches read: as launched -/

theorem W3_arg0 : W3 m ρ c (Proc.devRef .tc main_arg0) = m ((c.tc : Thread nD τ).loc main_arg0) :=
  calc W3 m ρ c (Proc.devRef .tc main_arg0)
    _ = W2 m ρ c (Proc.devRef .tc main_arg0) := h02_keeps_arg0 (W2 m ρ c)
    _ = W1 m ρ c (Proc.devRef .tc main_arg0) := h01_keeps_arg0 (W1 m ρ c)
    _ = W0 m ρ c (Proc.devRef .tc main_arg0) := h0_keeps_arg0 (W0 m ρ c)
    _ = m ((c.tc : Thread nD τ).loc main_arg0) := rfl

theorem W3_arg2 : W3 m ρ c (Proc.devRef .tc main_arg2) = m ((c.tc : Thread nD τ).loc main_arg2) :=
  calc W3 m ρ c (Proc.devRef .tc main_arg2)
    _ = W2 m ρ c (Proc.devRef .tc main_arg2) := h02_keeps_arg2 (W2 m ρ c)
    _ = W1 m ρ c (Proc.devRef .tc main_arg2) := h01_keeps_arg2 (W1 m ρ c)
    _ = W0 m ρ c (Proc.devRef .tc main_arg2) := h0_keeps_arg2 (W0 m ρ c)
    _ = m ((c.tc : Thread nD τ).loc main_arg2) := rfl

theorem W3_arg3 : W3 m ρ c (Proc.devRef .tc main_arg3) = m ((c.tc : Thread nD τ).loc main_arg3) :=
  calc W3 m ρ c (Proc.devRef .tc main_arg3)
    _ = W2 m ρ c (Proc.devRef .tc main_arg3) := h02_keeps_arg3 (W2 m ρ c)
    _ = W1 m ρ c (Proc.devRef .tc main_arg3) := h01_keeps_arg3 (W1 m ρ c)
    _ = W0 m ρ c (Proc.devRef .tc main_arg3) := h0_keeps_arg3 (W0 m ρ c)
    _ = m ((c.tc : Thread nD τ).loc main_arg3) := rfl
theorem W4_arg3 : W4 m ρ c (Proc.devRef .tc main_arg3) = m ((c.tc : Thread nD τ).loc main_arg3) :=
  (W4_of_ne m ρ c main_arg3 (by decide)).trans (W3_arg3 m ρ c)

theorem W3_arg4 : W3 m ρ c (Proc.devRef .tc main_arg4) = m ((c.tc : Thread nD τ).loc main_arg4) :=
  calc W3 m ρ c (Proc.devRef .tc main_arg4)
    _ = W2 m ρ c (Proc.devRef .tc main_arg4) := h02_keeps_arg4 (W2 m ρ c)
    _ = W1 m ρ c (Proc.devRef .tc main_arg4) := h01_keeps_arg4 (W1 m ρ c)
    _ = W0 m ρ c (Proc.devRef .tc main_arg4) := h0_keeps_arg4 (W0 m ρ c)
    _ = m ((c.tc : Thread nD τ).loc main_arg4) := rfl
theorem W4_arg4 : W4 m ρ c (Proc.devRef .tc main_arg4) = m ((c.tc : Thread nD τ).loc main_arg4) :=
  (W4_of_ne m ρ c main_arg4 (by decide)).trans (W3_arg4 m ρ c)
theorem W5_arg4 : W5 m ρ c (Proc.devRef .tc main_arg4) = m ((c.tc : Thread nD τ).loc main_arg4) :=
  (h1_keeps_arg4 (W4 m ρ c)).trans (W4_arg4 m ρ c)

theorem W3_arg5 : W3 m ρ c (Proc.devRef .tc main_arg5) = m ((c.tc : Thread nD τ).loc main_arg5) :=
  calc W3 m ρ c (Proc.devRef .tc main_arg5)
    _ = W2 m ρ c (Proc.devRef .tc main_arg5) := h02_keeps_arg5 (W2 m ρ c)
    _ = W1 m ρ c (Proc.devRef .tc main_arg5) := h01_keeps_arg5 (W1 m ρ c)
    _ = W0 m ρ c (Proc.devRef .tc main_arg5) := h0_keeps_arg5 (W0 m ρ c)
    _ = m ((c.tc : Thread nD τ).loc main_arg5) := rfl
theorem W4_arg5 : W4 m ρ c (Proc.devRef .tc main_arg5) = m ((c.tc : Thread nD τ).loc main_arg5) :=
  (W4_of_ne m ρ c main_arg5 (by decide)).trans (W3_arg5 m ρ c)
theorem W5_arg5 : W5 m ρ c (Proc.devRef .tc main_arg5) = m ((c.tc : Thread nD τ).loc main_arg5) :=
  (h1_keeps_arg5 (W4 m ρ c)).trans (W4_arg5 m ρ c)
theorem W6_arg5 : W6 m ρ c (Proc.devRef .tc main_arg5) = m ((c.tc : Thread nD τ).loc main_arg5) :=
  (W6_of_ne m ρ c main_arg5 (by decide)).trans (W5_arg5 m ρ c)

/-! ### The two index vectors: written by the first stretch, kept ever after -/

theorem W3_v3 : W3 m ρ c (Proc.devRef .tc main_v3) = rowT (m ((c.tc : Thread nD τ).loc main_arg1)) :=
  calc W3 m ρ c (Proc.devRef .tc main_v3)
    _ = W2 m ρ c (Proc.devRef .tc main_v3) := h02_keeps_v3 (W2 m ρ c)
    _ = W1 m ρ c (Proc.devRef .tc main_v3) := h01_keeps_v3 (W1 m ρ c)
    _ = rowT (m ((c.tc : Thread nD τ).loc main_arg1)) := h0_v3 (W0 m ρ c)
theorem W4_v3 : W4 m ρ c (Proc.devRef .tc main_v3) = rowT (m ((c.tc : Thread nD τ).loc main_arg1)) :=
  (W4_of_ne m ρ c main_v3 (by decide)).trans (W3_v3 m ρ c)
theorem W5_v3 : W5 m ρ c (Proc.devRef .tc main_v3) = rowT (m ((c.tc : Thread nD τ).loc main_arg1)) :=
  (h1_keeps_v3 (W4 m ρ c)).trans (W4_v3 m ρ c)
theorem W6_v3 : W6 m ρ c (Proc.devRef .tc main_v3) = rowT (m ((c.tc : Thread nD τ).loc main_arg1)) :=
  (W6_of_ne m ρ c main_v3 (by decide)).trans (W5_v3 m ρ c)

theorem W3_v6 : W3 m ρ c (Proc.devRef .tc main_v6) = colT (m ((c.tc : Thread nD τ).loc main_arg1)) :=
  calc W3 m ρ c (Proc.devRef .tc main_v6)
    _ = W2 m ρ c (Proc.devRef .tc main_v6) := h02_keeps_v6 (W2 m ρ c)
    _ = W1 m ρ c (Proc.devRef .tc main_v6) := h01_keeps_v6 (W1 m ρ c)
    _ = colT (m ((c.tc : Thread nD τ).loc main_arg1)) := h0_v6 (W0 m ρ c)
theorem W4_v6 : W4 m ρ c (Proc.devRef .tc main_v6) = colT (m ((c.tc : Thread nD τ).loc main_arg1)) :=
  (W4_of_ne m ρ c main_v6 (by decide)).trans (W3_v6 m ρ c)
theorem W5_v6 : W5 m ρ c (Proc.devRef .tc main_v6) = colT (m ((c.tc : Thread nD τ).loc main_arg1)) :=
  (h1_keeps_v6 (W4 m ρ c)).trans (W4_v6 m ρ c)
theorem W6_v6 : W6 m ρ c (Proc.devRef .tc main_v6) = colT (m ((c.tc : Thread nD τ).loc main_arg1)) :=
  (W6_of_ne m ρ c main_v6 (by decide)).trans (W5_v6 m ρ c)

/-! ### The per-node factor: the first stretch's three pieces, selected by the second, kept ever after -/

theorem W1_v12 : W1 m ρ c (Proc.devRef .tc main_v12)
    = cmpf .ogt (degT (m ((c.tc : Thread nD τ).loc main_arg1))) (broadcastInDim S50000 ![] bcast_S_S50000 (constant (F := Ideal) S_ .f32 0x00000000#32)) :=
  h0_v12 (W0 m ρ c)
theorem W1_v13 : W1 m ρ c (Proc.devRef .tc main_v13) = (Host.rsqrt (F := Ideal) (s := S50000) (φ := .f32) (degT (m ((c.tc : Thread nD τ).loc main_arg1))) : Arr S50000 .f32) :=
  h0_v13 (W0 m ρ c)
theorem W1_cst_2 : W1 m ρ c (Proc.devRef .tc main_cst_2) = constant (F := Ideal) S_ .f32 0x00000000#32 :=
  h0_cst_2 (W0 m ρ c)

theorem W2_v14 : W2 m ρ c (Proc.devRef .tc main_v14) = dinvT (m ((c.tc : Thread nD τ).loc main_arg1)) :=
  calc W2 m ρ c (Proc.devRef .tc main_v14)
    _ = select (W1 m ρ c (Proc.devRef .tc main_v12)) (W1 m ρ c (Proc.devRef .tc main_v13))
          (broadcastInDim S50000 ![] bcast_S_S50000 (id (W1 m ρ c (Proc.devRef .tc main_cst_2)))) := h01_v14 (W1 m ρ c)
    _ = dinvT (m ((c.tc : Thread nD τ).loc main_arg1)) := by rw [W1_v12 m ρ c, W1_v13 m ρ c, W1_cst_2 m ρ c]; rfl
theorem W3_v14 : W3 m ρ c (Proc.devRef .tc main_v14) = dinvT (m ((c.tc : Thread nD τ).loc main_arg1)) :=
  (h02_keeps_v14 (W2 m ρ c)).trans (W2_v14 m ρ c)
theorem W4_v14 : W4 m ρ c (Proc.devRef .tc main_v14) = dinvT (m ((c.tc : Thread nD τ).loc main_arg1)) :=
  (W4_of_ne m ρ c main_v14 (by decide)).trans (W3_v14 m ρ c)
theorem W5_v14 : W5 m ρ c (Proc.devRef .tc main_v14) = dinvT (m ((c.tc : Thread nD τ).loc main_arg1)) :=
  (h1_keeps_v14 (W4 m ρ c)).trans (W4_v14 m ρ c)
theorem W6_v14 : W6 m ρ c (Proc.devRef .tc main_v14) = dinvT (m ((c.tc : Thread nD τ).loc main_arg1)) :=
  (W6_of_ne m ρ c main_v14 (by decide)).trans (W5_v14 m ρ c)

/-! ### The factor column: written by the third stretch, an input of both regions -/

theorem W3_v15 : W3 m ρ c (Proc.devRef .tc main_v15) = dinvCol (m ((c.tc : Thread nD τ).loc main_arg1)) :=
  calc W3 m ρ c (Proc.devRef .tc main_v15)
    _ = broadcastInDim S50000x1 ![0] bcast_S50000_S50000x1_0 (W2 m ρ c (Proc.devRef .tc main_v14)) := h02_v15 (W2 m ρ c)
    _ = dinvCol (m ((c.tc : Thread nD τ).loc main_arg1)) := by rw [W2_v14 m ρ c]; rfl
theorem W4_v15 : W4 m ρ c (Proc.devRef .tc main_v15) = dinvCol (m ((c.tc : Thread nD τ).loc main_arg1)) :=
  calc W4 m ρ c (Proc.devRef .tc main_v15)
    _ = W3 m ρ c (Proc.devRef .tc main_v15) := (W4_arr m ρ c 2).trans (((dat0 (V3 m ρ) c).arrAt_in 2 rfl _).trans (A_eq0 (V3 m ρ) c 2))
    _ = dinvCol (m ((c.tc : Thread nD τ).loc main_arg1)) := W3_v15 m ρ c
theorem W5_v15 : W5 m ρ c (Proc.devRef .tc main_v15) = dinvCol (m ((c.tc : Thread nD τ).loc main_arg1)) :=
  (h1_keeps_v15 (W4 m ρ c)).trans (W4_v15 m ρ c)

/-! ### The regions' output arrays -/

theorem W4_v16 : W4 m ρ c (Proc.devRef .tc main_v16) = (dat0 (F := Ideal) (V3 m ρ) c).arrAt 3 cfg0.N := W4_arr m ρ c 3
theorem W6_v34 : W6 m ρ c (Proc.devRef .tc main_v34) = (dat1 (F := Ideal) (V5 m ρ) c).arrAt 3 cfg1.N := W6_arr m ρ c 3

/-! ## The deliverables -/

/-- The result buffer ends at the second layer's aggregation of the second region's output array. -/
theorem W7_result : W7 m ρ c (Proc.devRef .tc main_v51)
    = agg128 (m ((c.tc : Thread nD τ).loc main_arg1)) (m ((c.tc : Thread nD τ).loc main_arg5)) ((dat1 (F := Ideal) (V5 m ρ) c).arrAt 3 cfg1.N) :=
  calc W7 m ρ c (Proc.devRef .tc main_v51)
    _ = aggOf128 (W6 m ρ c (Proc.devRef .tc main_v3)) (W6 m ρ c (Proc.devRef .tc main_v6)) (W6 m ρ c (Proc.devRef .tc main_v14))
          (W6 m ρ c (Proc.devRef .tc main_arg5)) (W6 m ρ c (Proc.devRef .tc main_v34)) := h2_v51 (W6 m ρ c)
    _ = aggOf128 (rowT (m ((c.tc : Thread nD τ).loc main_arg1))) (colT (m ((c.tc : Thread nD τ).loc main_arg1))) (dinvT (m ((c.tc : Thread nD τ).loc main_arg1))) (m ((c.tc : Thread nD τ).loc main_arg5)) ((dat1 (F := Ideal) (V5 m ρ) c).arrAt 3 cfg1.N) := by
          rw [W6_v3 m ρ c, W6_v6 m ρ c, W6_v14 m ρ c, W6_arg5 m ρ c, W6_v34 m ρ c]
    _ = agg128 (m ((c.tc : Thread nD τ).loc main_arg1)) (m ((c.tc : Thread nD τ).loc main_arg5)) ((dat1 (F := Ideal) (V5 m ρ) c).arrAt 3 cfg1.N) := (agg128_eq _ _ _).symm

/-- The second region's first input is the first layer's aggregation of the first region's output array. -/
theorem V5_v33 : V5 m ρ c main_v33
    = agg256 (m ((c.tc : Thread nD τ).loc main_arg1)) (m ((c.tc : Thread nD τ).loc main_arg3)) ((dat0 (F := Ideal) (V3 m ρ) c).arrAt 3 cfg0.N) :=
  calc W5 m ρ c (Proc.devRef .tc main_v33)
    _ = aggOf256 (W4 m ρ c (Proc.devRef .tc main_v3)) (W4 m ρ c (Proc.devRef .tc main_v6)) (W4 m ρ c (Proc.devRef .tc main_v14))
          (W4 m ρ c (Proc.devRef .tc main_arg3)) (W4 m ρ c (Proc.devRef .tc main_v16)) := h1_v33 (W4 m ρ c)
    _ = aggOf256 (rowT (m ((c.tc : Thread nD τ).loc main_arg1))) (colT (m ((c.tc : Thread nD τ).loc main_arg1))) (dinvT (m ((c.tc : Thread nD τ).loc main_arg1))) (m ((c.tc : Thread nD τ).loc main_arg3)) ((dat0 (F := Ideal) (V3 m ρ) c).arrAt 3 cfg0.N) := by
          rw [W4_v3 m ρ c, W4_v6 m ρ c, W4_v14 m ρ c, W4_arg3 m ρ c, W4_v16 m ρ c]
    _ = agg256 (m ((c.tc : Thread nD τ).loc main_arg1)) (m ((c.tc : Thread nD τ).loc main_arg3)) ((dat0 (F := Ideal) (V3 m ρ) c).arrAt 3 cfg0.N) := (agg256_eq _ _ _).symm

/-- The second region's weight array is as launched, and its factor column is the program's. -/
theorem V5_arg4 : V5 m ρ c main_arg4 = m ((c.tc : Thread nD τ).loc main_arg4) := W5_arg4 m ρ c
theorem V5_v15 : V5 m ρ c main_v15 = dinvCol (m ((c.tc : Thread nD τ).loc main_arg1)) := W5_v15 m ρ c

/-- The first region's feature and weight arrays are as launched, and its factor column is the program's. -/
theorem V3_arg0 : V3 m ρ c main_arg0 = m ((c.tc : Thread nD τ).loc main_arg0) := W3_arg0 m ρ c
theorem V3_arg2 : V3 m ρ c main_arg2 = m ((c.tc : Thread nD τ).loc main_arg2) := W3_arg2 m ρ c
theorem V3_v15 : V3 m ρ c main_v15 = dinvCol (m ((c.tc : Thread nD τ).loc main_arg1)) := W3_v15 m ρ c

end Walks

end Cert.KernelIdeal.Run

end
-- ==== Proof.GcnSpec.lean ====
/-
  The mathematics of one graph-convolution layer with a separable normalisation, over the extended reals.

  A node matrix `x` of `N` rows is multiplied by a weight matrix `w`; row `p` of the product is then scaled by the
  node's factor `d p` (`lin`). `relu` is the maximum with zero, entry by entry.
-/
import Idealize.ShloMosaic.PureOps.Ideal
import Idealize.ShloMosaic.Lib.ValueIdx

noncomputable section

open scoped BigOperators

namespace Cert.Gcn

open Idealize.ShloMosaic Idealize.ShloMosaic.ValueIdx

/-- Row `p`, column `q` of `x · w`, scaled by the factor of row `p`: `(∑ k, x (p, k) · w (k, q)) · d (p, 0)`. -/
def lin {N K C : ℕ} (x : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  fun i => (∑ k : Fin K, x (ix2 (⟨(i 0).val, (i 0).isLt⟩ : Fin N) k) * w (ix2 k (⟨(i 1).val, (i 1).isLt⟩ : Fin C)))
    * d (ix2 (⟨(i 0).val, (i 0).isLt⟩ : Fin N) (0 : Fin 1))

theorem lin_apply {N K C : ℕ} (x : (⟨2, ![N, K]⟩ : Shape).Idx → EReal) (w : (⟨2, ![K, C]⟩ : Shape).Idx → EReal)
    (d : (⟨2, ![N, 1]⟩ : Shape).Idx → EReal) (p : Fin N) (q : Fin C) :
    lin x w d (ix2 p q) = (∑ k : Fin K, x (ix2 p k) * w (ix2 k q)) * d (ix2 p (0 : Fin 1)) := rfl

/-- The maximum with zero, entry by entry. -/
def relu {S : Shape} (x : S.Idx → EReal) : S.Idx → EReal := fun i => max (x i) 0

theorem relu_apply {S : Shape} (x : S.Idx → EReal) (i : S.Idx) : relu x i = max (x i) 0 := rfl

end Cert.Gcn

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.KBlocks0.lean ====
/-
  The first layer's linear stage over the whole node matrix.

  The stage is computed 2000 rows at a time: block `t` of the result is the product of rows `2000 t … 2000 t + 1999` of
  the node matrix with the whole weight matrix, row `p` of the block scaled by the factor of node `2000 t + p`. Over
  the extended reals the changes of float format are the identity and the product into a zero accumulator is the plain
  sum over the contracted coordinate, so each block is the restriction to its rows of ONE function of the three arrays,
  `(p, q) ↦ (∑ k, x (p, k) · w (k, q)) · d (p, 0)`; the 25 blocks tile the 50000 rows, so the array ends holding that
  function.
-/
import proofs.«155882_j32315333935770_2_alg».proof.Proof.Gen.KernelIdeal.Frame
import proofs.«155882_j32315333935770_2_alg».proof.Proof.GcnSpec
import proofs.«155882_j32315333935770_2_alg».proof.Proof.LibPlainDot
import proofs.«155882_j32315333935770_2_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open scoped BigOperators

/-- The zero offsets of a whole-buffer access. -/
theorem zero_offsets0 : (![0, 0] : Fin 2 → Nat) = fun _ => 0 := funext fun a => by fin_cases a <;> rfl

/-! ## One block's arithmetic at an entry -/

/-- Entry `(p, q)` of a block's result: the row-`p` / column-`q` inner product of the two loaded blocks, times the
    row's factor. -/
theorem block_entry0 (x0 : FVec Ideal S2000x256 .f32) (x1 : FVec Ideal S256x256 .f32) (x2 : FVec Ideal S2000x1 .f32)
    (p : Fin 2000) (q : Fin 256) :
    k0_pay1 (F := Ideal) x0 x1 x2 (ix2 p q) = (∑ k : Fin 256, x0 (ix2 p k) * x1 (ix2 k q)) * x2 (ix2 p (0 : Fin 1)) := by
  unfold k0_pay1
  show matmul (F := Ideal) dot_S2000x256_S256x256_S2000x256_1_0_0_1_n_n none
        (truncf (F := Ideal) .bf16 x0 bitsLt_bf16_f32) (truncf (F := Ideal) .bf16 x1 bitsLt_bf16_f32)
        (constant (F := Ideal) S2000x256 .f32 0x00000000#32) (ix2 p q)
      * broadcastTo S2000x256 (shapeCast S2000x1 x2 shapeCasts_S2000x1_S2000x1) broadcasts_S2000x1_S2000x256 (ix2 p q) = _
  rw [shapeCast_self]
  refine congrArg₂ (· * ·) ?_ ?_
  · exact (Cert.Lib.PlainDot.matmul_zero_apply 2000 256 256 none (truncf (F := Ideal) .bf16 x0 bitsLt_bf16_f32)
      (truncf (F := Ideal) .bf16 x1 bitsLt_bf16_f32) (ix2 p q)).trans (Finset.sum_congr rfl fun k _ => rfl)
  · exact Cert.Lib.ColBroadcast.broadcastTo_a1_ab_apply x2 broadcasts_S2000x1_S2000x256 p q

/-! ## Where the blocks sit -/

/-- The block index maps over the 25 grid points: the node matrix's and the factor column's blocks move with the
    result's block down the rows, the weight matrix's one block stays, and the result's block index is the point's
    row-block number, at most 24. -/
theorem block_indices0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every row block is some grid point's. -/
theorem block_onto0 : ∀ b : Fin 25, ∃ t : Fin cfg0.N, win0_3.index t = ![b.val, 0] :=
  (by decide +kernel : ∀ b : Fin 25, ∃ t : Fin grid0.N, win0_3.index t = ![b.val, 0])

variable (V : (c : Dev nD) → (b : Ref sig .tc) → Buf (Elt Ideal) ((c : Thread nD τ).loc b))

/-- Row `p` of the node matrix's block at point `t` is row `2000 · (block index) + p` of the node matrix. -/
theorem x_block0 (c : Dev nD) (t : Fin cfg0.N) (p : Fin 2000) (k : Fin 256) (r : Fin 50000)
    (hr : r.val = win0_3.index t (0 : Fin 2) * 2000 + p.val) :
    (iblk0 (F := Ideal) V c 0 t : Vec Ideal S2000x256 .f32) (ix2 p k) = (V c main_arg0 : S50000x256.Idx → EReal) (ix2 r k) := by
  obtain ⟨e00, e01, -, -, -, -, -, -⟩ := block_indices0 t
  show V c main_arg0 (((cfg0.win 0).blk t).view.emb (ix2 p k)) = V c main_arg0 (ix2 r k)
  have h : ((cfg0.win 0).blk t).view.emb (ix2 p k) = (ix2 r k : S50000x256.Idx) := by
    funext a; apply Fin.ext
    match a with
    | ⟨0, _⟩ => show win0_0.index t (0 : Fin 2) * 2000 + 1 * p.val = r.val; omega
    | ⟨1, _⟩ => show win0_0.index t (1 : Fin 2) * 256 + 1 * k.val = k.val; omega
  rw [h]

/-- The weight matrix's block at every point is the whole weight matrix. -/
theorem w_block0 (c : Dev nD) (t : Fin cfg0.N) (k : Fin 256) (q : Fin 256) :
    (iblk0 (F := Ideal) V c 1 t : Vec Ideal S256x256 .f32) (ix2 k q) = (V c main_arg2 : S256x256.Idx → EReal) (ix2 k q) := by
  obtain ⟨-, -, e10, e11, -, -, -, -⟩ := block_indices0 t
  show V c main_arg2 (((cfg0.win 1).blk t).view.emb (ix2 k q)) = V c main_arg2 (ix2 k q)
  have h : ((cfg0.win 1).blk t).view.emb (ix2 k q) = (ix2 k q : S256x256.Idx) := by
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [h]

/-- Row `p` of the factor column's block at point `t` is the factor of node `2000 · (block index) + p`. -/
theorem d_block0 (c : Dev nD) (t : Fin cfg0.N) (p : Fin 2000) (r : Fin 50000)
    (hr : r.val = win0_3.index t (0 : Fin 2) * 2000 + p.val) :
    (iblk0 (F := Ideal) V c 2 t : Vec Ideal S2000x1 .f32) (ix2 p (0 : Fin 1)) = (V c main_v15 : S50000x1.Idx → EReal) (ix2 r (0 : Fin 1)) := by
  obtain ⟨-, -, -, -, e20, e21, -, -⟩ := block_indices0 t
  show V c main_v15 (((cfg0.win 2).blk t).view.emb (ix2 p (0 : Fin 1))) = V c main_v15 (ix2 r (0 : Fin 1))
  have h : ((cfg0.win 2).blk t).view.emb (ix2 p (0 : Fin 1)) = (ix2 r (0 : Fin 1) : S50000x1.Idx) := by
    funext a; apply Fin.ext
    match a with
    | ⟨0, _⟩ => show win0_2.index t (0 : Fin 2) * 2000 + 1 * p.val = r.val; omega
    | ⟨1, _⟩ => show win0_2.index t (1 : Fin 2) * 1 + 1 * 0 = 0; omega
  rw [h]

/-- Entry `(p, q)` of the result's block at point `t` sits at row `2000 · (block index) + p`, column `q` of the array. -/
theorem out_position0 (t : Fin cfg0.N) (p : Fin 2000) (q : Fin 256) (r : Fin 50000)
    (hr : r.val = win0_3.index t (0 : Fin 2) * 2000 + p.val) :
    ((cfg0.win 3).blk t).view.emb (ix2 p q) = (ix2 r q : S50000x256.Idx) := by
  obtain ⟨-, -, -, -, -, -, e31, -⟩ := block_indices0 t
  funext a; apply Fin.ext
  match a with
  | ⟨0, _⟩ => show win0_3.index t (0 : Fin 2) * 2000 + 1 * p.val = r.val; omega
  | ⟨1, _⟩ => show win0_3.index t (1 : Fin 2) * 256 + 1 * q.val = q.val; omega

/-! ## What a point writes back, and the whole array -/

/-- Point `t` writes back block `t` of the layer's linear stage of the three arrays the region finds. -/
theorem flushed0 (c : Dev nD) (t : Fin cfg0.N) :
    (dat0 (F := Ideal) V c).flushed 3 t
      = ((cfg0.win 3).blk t).view.read (Elt Ideal) (Cert.Gcn.lin (V c main_arg0) (V c main_arg2) (V c main_v15)) := by
  show (cfg0.win 3).cut (grid0.coords t) ((dat0 V c).after 3 t) = _
  rw [after0_3]
  unfold out0_3
  rw [View.canon_unit_zero zero_offsets0]
  simp only [View.ld_unit_zero (S := S2000x256) zero_offsets0, View.ld_unit_zero (S := S256x256) zero_offsets0,
    View.ld_unit_zero (S := S2000x1) zero_offsets0]
  refine funext fun (j : S2000x256.Idx) => ?_
  obtain ⟨p, q, rfl⟩ : ∃ (p : Fin 2000) (q : Fin 256), j = ix2 p q := ⟨j 0, j 1, eq_ix2 j⟩
  obtain ⟨-, -, -, -, -, -, -, e30⟩ := block_indices0 t
  have hp : p.val < 2000 := p.isLt
  have hr : (⟨win0_3.index t (0 : Fin 2) * 2000 + p.val, by omega⟩ : Fin 50000).val
      = win0_3.index t (0 : Fin 2) * 2000 + p.val := rfl
  show k0_pay1 (iblk0 V c 0 t) (iblk0 V c 1 t) (iblk0 V c 2 t) (ix2 p q)
      = Cert.Gcn.lin (V c main_arg0) (V c main_arg2) (V c main_v15) (((cfg0.win 3).blk t).view.emb (ix2 p q))
  refine (block_entry0 (iblk0 V c 0 t) (iblk0 V c 1 t) (iblk0 V c 2 t) p q).trans ?_
  rw [out_position0 t p q _ hr, Cert.Gcn.lin_apply, d_block0 V c t p _ hr]
  exact congrArg (· * _) (Finset.sum_congr rfl fun k _ => by rw [x_block0 V c t p k _ hr, w_block0 V c t k q])

/-- An index of the array is in point `t`'s block iff each coordinate is in the block's range on its axis. -/
theorem mem_block0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v16).slice (win0_3.rect t)).set ↔ _
  rw [View.set_slice_whole, Rect.mem_set_unit]
  exact Iff.rfl

/-- Every entry of the array is written back by some point: row `r` by the point of row block `r / 2000`. -/
theorem covered0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The region's output array after the run is the layer's linear stage of the node matrix, the weight matrix and the
    factor column as the region finds them. -/
theorem final0 (c : Dev nD) :
    (dat0 (F := Ideal) V c).arrAt 3 cfg0.N = Cert.Gcn.lin (V c main_arg0) (V c main_arg2) (V c main_v15) :=
  (dat0 V c).arrAt_eq_of_cover 3 _ (fun t _ => flushed0 V c t) covered0

end Cert.KernelIdeal.Blocks

end
-- ==== Proof.KBlocks1.lean ====
/-
  The second layer's linear stage over the whole node matrix.

  As in the first layer the stage is computed 2000 rows at a time, here on the node matrix after the maximum with zero,
  entry by entry, and with a weight matrix of 128 columns: block `t` of the result is the product of rows
  `2000 t … 2000 t + 1999` of `max (x, 0)` with the whole weight matrix, row `p` scaled by the factor of node
  `2000 t + p`. Over the extended reals each block is the restriction to its rows of ONE function of the three arrays,
  `(p, q) ↦ (∑ k, max (x (p, k)) 0 · w (k, q)) · d (p, 0)`; the 25 blocks tile the 50000 rows, so the array ends holding
  that function.
-/
import proofs.«155882_j32315333935770_2_alg».proof.Proof.Gen.KernelIdeal.Frame
import proofs.«155882_j32315333935770_2_alg».proof.Proof.GcnSpec
import proofs.«155882_j32315333935770_2_alg».proof.Proof.LibPlainDot
import proofs.«155882_j32315333935770_2_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open scoped BigOperators

/-- The zero offsets of a whole-buffer access. -/
theorem zero_offsets1 : (![0, 0] : Fin 2 → Nat) = fun _ => 0 := funext fun a => by fin_cases a <;> rfl

/-! ## One block's arithmetic at an entry -/

/-- Entry `(p, q)` of a block's result: the inner product of row `p` of the loaded node block, each entry replaced by
    its maximum with zero, with column `q` of the weight block, times the row's factor. -/
theorem block_entry1 (x0 : FVec Ideal S2000x256 .f32) (x5 : FVec Ideal S256x128 .f32) (x8 : FVec Ideal S2000x1 .f32)
    (p : Fin 2000) (q : Fin 128) :
    k1_pay1 (F := Ideal) x0 x5 x8 (ix2 p q) = (∑ k : Fin 256, max (x0 (ix2 p k)) 0 * x5 (ix2 k q)) * x8 (ix2 p (0 : Fin 1)) := by
  unfold k1_pay1
  show matmul (F := Ideal) dot_S2000x256_S256x128_S2000x128_1_0_0_1_n_n none
        (truncf (F := Ideal) .bf16 (maximumf (F := Ideal) (shapeCast S2000x256 x0 shapeCasts_S2000x256_S2000x256)
          (broadcast S2000x256 (Scalar.ofBits (F := Ideal) .f32 0x00000000#32))) bitsLt_bf16_f32)
        (truncf (F := Ideal) .bf16 x5 bitsLt_bf16_f32) (constant (F := Ideal) S2000x128 .f32 0x00000000#32) (ix2 p q)
      * broadcastTo S2000x128 (shapeCast S2000x1 x8 shapeCasts_S2000x1_S2000x1) broadcasts_S2000x1_S2000x128 (ix2 p q) = _
  rw [shapeCast_self, shapeCast_self]
  refine congrArg₂ (· * ·) ?_ ?_
  · refine (Cert.Lib.PlainDot.matmul_zero_apply 2000 256 128 none
      (truncf (F := Ideal) .bf16 (maximumf (F := Ideal) x0 (broadcast S2000x256 (Scalar.ofBits (F := Ideal) .f32 0x00000000#32))) bitsLt_bf16_f32)
      (truncf (F := Ideal) .bf16 x5 bitsLt_bf16_f32) (ix2 p q)).trans (Finset.sum_congr rfl fun k _ => ?_)
    show max (x0 (ix2 p k)) (Ideal.ofBits .f32 0x00000000#32) * x5 (ix2 k q) = max (x0 (ix2 p k)) 0 * x5 (ix2 k q)
    rw [Ideal.ofBits_zero_f32]
  · exact Cert.Lib.ColBroadcast.broadcastTo_a1_ab_apply x8 broadcasts_S2000x1_S2000x128 p q

/-! ## Where the blocks sit -/

/-- The block index maps over the 25 grid points: the node matrix's and the factor column's blocks move with the
    result's block down the rows, the weight matrix's one block stays, and the result's block index is the point's
    row-block number, at most 24. -/
theorem block_indices1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 24 :=
  (by decide +kernel : ∀ t : Fin grid1.N, _)

/-- Every row block is some grid point's. -/
theorem block_onto1 : ∀ b : Fin 25, ∃ t : Fin cfg1.N, win1_3.index t = ![b.val, 0] :=
  (by decide +kernel : ∀ b : Fin 25, ∃ t : Fin grid1.N, win1_3.index t = ![b.val, 0])

variable (V : (c : Dev nD) → (b : Ref sig .tc) → Buf (Elt Ideal) ((c : Thread nD τ).loc b))

/-- Row `p` of the node matrix's block at point `t` is row `2000 · (block index) + p` of the node matrix. -/
theorem x_block1 (c : Dev nD) (t : Fin cfg1.N) (p : Fin 2000) (k : Fin 256) (r : Fin 50000)
    (hr : r.val = win1_3.index t (0 : Fin 2) * 2000 + p.val) :
    (iblk1 (F := Ideal) V c 0 t : Vec Ideal S2000x256 .f32) (ix2 p k) = (V c main_v33 : S50000x256.Idx → EReal) (ix2 r k) := by
  obtain ⟨e00, e01, -, -, -, -, -, -⟩ := block_indices1 t
  show V c main_v33 (((cfg1.win 0).blk t).view.emb (ix2 p k)) = V c main_v33 (ix2 r k)
  have h : ((cfg1.win 0).blk t).view.emb (ix2 p k) = (ix2 r k : S50000x256.Idx) := by
    funext a; apply Fin.ext
    match a with
    | ⟨0, _⟩ => show win1_0.index t (0 : Fin 2) * 2000 + 1 * p.val = r.val; omega
    | ⟨1, _⟩ => show win1_0.index t (1 : Fin 2) * 256 + 1 * k.val = k.val; omega
  rw [h]

/-- The weight matrix's block at every point is the whole weight matrix. -/
theorem w_block1 (c : Dev nD) (t : Fin cfg1.N) (k : Fin 256) (q : Fin 128) :
    (iblk1 (F := Ideal) V c 1 t : Vec Ideal S256x128 .f32) (ix2 k q) = (V c main_arg4 : S256x128.Idx → EReal) (ix2 k q) := by
  obtain ⟨-, -, e10, e11, -, -, -, -⟩ := block_indices1 t
  show V c main_arg4 (((cfg1.win 1).blk t).view.emb (ix2 k q)) = V c main_arg4 (ix2 k q)
  have h : ((cfg1.win 1).blk t).view.emb (ix2 k q) = (ix2 k q : S256x128.Idx) := by
    funext a; apply Fin.ext
    match a with
    | ⟨0, _⟩ => show win1_1.index t (0 : Fin 2) * 256 + 1 * k.val = k.val; omega
    | ⟨1, _⟩ => show win1_1.index t (1 : Fin 2) * 128 + 1 * q.val = q.val; omega
  rw [h]

/-- Row `p` of the factor column's block at point `t` is the factor of node `2000 · (block index) + p`. -/
theorem d_block1 (c : Dev nD) (t : Fin cfg1.N) (p : Fin 2000) (r : Fin 50000)
    (hr : r.val = win1_3.index t (0 : Fin 2) * 2000 + p.val) :
    (iblk1 (F := Ideal) V c 2 t : Vec Ideal S2000x1 .f32) (ix2 p (0 : Fin 1)) = (V c main_v15 : S50000x1.Idx → EReal) (ix2 r (0 : Fin 1)) := by
  obtain ⟨-, -, -, -, e20, e21, -, -⟩ := block_indices1 t
  show V c main_v15 (((cfg1.win 2).blk t).view.emb (ix2 p (0 : Fin 1))) = V c main_v15 (ix2 r (0 : Fin 1))
  have h : ((cfg1.win 2).blk t).view.emb (ix2 p (0 : Fin 1)) = (ix2 r (0 : Fin 1) : S50000x1.Idx) := by
    funext a; apply Fin.ext
    match a with
    | ⟨0, _⟩ => show win1_2.index t (0 : Fin 2) * 2000 + 1 * p.val = r.val; omega
    | ⟨1, _⟩ => show win1_2.index t (1 : Fin 2) * 1 + 1 * 0 = 0; omega
  rw [h]

/-- Entry `(p, q)` of the result's block at point `t` sits at row `2000 · (block index) + p`, column `q` of the array. -/
theorem out_position1 (t : Fin cfg1.N) (p : Fin 2000) (q : Fin 128) (r : Fin 50000)
    (hr : r.val = win1_3.index t (0 : Fin 2) * 2000 + p.val) :
    ((cfg1.win 3).blk t).view.emb (ix2 p q) = (ix2 r q : S50000x128.Idx) := by
  obtain ⟨-, -, -, -, -, -, e31, -⟩ := block_indices1 t
  funext a; apply Fin.ext
  match a with
  | ⟨0, _⟩ => show win1_3.index t (0 : Fin 2) * 2000 + 1 * p.val = r.val; omega
  | ⟨1, _⟩ => show win1_3.index t (1 : Fin 2) * 128 + 1 * q.val = q.val; omega

/-! ## What a point writes back, and the whole array -/

/-- Point `t` writes back block `t` of the layer's linear stage of the three arrays the region finds, the node matrix
    taken after its maximum with zero. -/
theorem flushed1 (c : Dev nD) (t : Fin cfg1.N) :
    (dat1 (F := Ideal) V c).flushed 3 t
      = ((cfg1.win 3).blk t).view.read (Elt Ideal)
          (Cert.Gcn.lin (Cert.Gcn.relu (V c main_v33)) (V c main_arg4) (V c main_v15)) := by
  show (cfg1.win 3).cut (grid1.coords t) ((dat1 V c).after 3 t) = _
  rw [after1_3]
  unfold out1_3
  rw [View.canon_unit_zero zero_offsets1]
  simp only [View.ld_unit_zero (S := S2000x256) zero_offsets1, View.ld_unit_zero (S := S256x128) zero_offsets1,
    View.ld_unit_zero (S := S2000x1) zero_offsets1]
  refine funext fun (j : S2000x128.Idx) => ?_
  obtain ⟨p, q, rfl⟩ : ∃ (p : Fin 2000) (q : Fin 128), j = ix2 p q := ⟨j 0, j 1, eq_ix2 j⟩
  obtain ⟨-, -, -, -, -, -, -, e30⟩ := block_indices1 t
  have hp : p.val < 2000 := p.isLt
  have hr : (⟨win1_3.index t (0 : Fin 2) * 2000 + p.val, by omega⟩ : Fin 50000).val
      = win1_3.index t (0 : Fin 2) * 2000 + p.val := rfl
  show k1_pay1 (iblk1 V c 0 t) (iblk1 V c 1 t) (iblk1 V c 2 t) (ix2 p q)
      = Cert.Gcn.lin (Cert.Gcn.relu (V c main_v33)) (V c main_arg4) (V c main_v15) (((cfg1.win 3).blk t).view.emb (ix2 p q))
  refine (block_entry1 (iblk1 V c 0 t) (iblk1 V c 1 t) (iblk1 V c 2 t) p q).trans ?_
  rw [out_position1 t p q _ hr, Cert.Gcn.lin_apply, d_block1 V c t p _ hr]
  refine congrArg (· * _) (Finset.sum_congr rfl fun k _ => ?_)
  rw [x_block1 V c t p k _ hr, w_block1 V c t k q, Cert.Gcn.relu_apply]

/-- An index of the array is in point `t`'s block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v34).slice (win1_3.rect t)).set ↔ _
  rw [View.set_slice_whole, Rect.mem_set_unit]
  exact Iff.rfl

/-- Every entry of the array is written back by some point: row `r` by the point of row block `r / 2000`. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := block_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The region's output array after the run is the layer's linear stage of the node matrix after its maximum with
    zero, the weight matrix and the factor column as the region finds them. -/
theorem final1 (c : Dev nD) :
    (dat1 (F := Ideal) V c).arrAt 3 cfg1.N
      = Cert.Gcn.lin (Cert.Gcn.relu (V c main_v33)) (V c main_arg4) (V c main_v15) :=
  (dat1 V c).arrAt_eq_of_cover 3 _ (fun t _ => flushed1 V c t) covered1

end Cert.KernelIdeal.Blocks

end
-- ==== Proof.KValue.lean ====
/-
  The kernel's program computes the two-layer graph convolution: from any launch memory with zero counters every
  weakly fair execution terminates without fault, the argument arrays end as launched, and the result buffer ends at
  the second layer's aggregation of the second matrix-product region's output, where that output is the linear stage
  of the first layer's aggregate after its maximum with zero, and the first layer's aggregate is the aggregation of
  the first region's linear stage of the launched node matrix. The run names the result as the last boundary's
  contents; the fold of contents walks it back to the regions' output arrays and their inputs; each region's output
  array is its layer's linear stage of its inputs.
-/
import proofs.«155882_j32315333935770_2_alg».proof.Proof.KRun
import proofs.«155882_j32315333935770_2_alg».proof.Proof.KFold
import proofs.«155882_j32315333935770_2_alg».proof.Proof.KBlocks0
import proofs.«155882_j32315333935770_2_alg».proof.Proof.KBlocks1
import proofs.«155882_j32315333935770_2_alg».proof.Proof.GcnSpec

set_option maxRecDepth 16384

noncomputable section

namespace Cert.KernelIdeal.Run

open Cert.KernelIdeal Cert.KernelIdeal.HostTerms
open Cert.KernelIdeal.Gen (W7 V3 V5 dat0 dat1)
open Idealize.ShloMosaic Idealize.ShloMosaic.TcCoe Idealize.SL.Sem

variable (m : (ℓ : Loc nD τ sig) → Buf (Elt Ideal) ℓ) (ρ : Dev nD → PrngReg)

/-- The last boundary's contents at the result buffer, in the argument arrays alone. -/
theorem W7_value (c : Dev nD) : W7 m ρ c (Proc.devRef .tc main_v51)
    = agg128 (m ((c.tc : Thread nD τ).loc main_arg1)) (m ((c.tc : Thread nD τ).loc main_arg5))
        (Cert.Gcn.lin (Cert.Gcn.relu (agg256 (m ((c.tc : Thread nD τ).loc main_arg1)) (m ((c.tc : Thread nD τ).loc main_arg3))
            (Cert.Gcn.lin (m ((c.tc : Thread nD τ).loc main_arg0)) (m ((c.tc : Thread nD τ).loc main_arg2)) (dinvCol (m ((c.tc : Thread nD τ).loc main_arg1))))))
          (m ((c.tc : Thread nD τ).loc main_arg4)) (dinvCol (m ((c.tc : Thread nD τ).loc main_arg1)))) := by
  rw [W7_result m ρ c, Blocks.final1 (V5 m ρ) c, V5_v33 m ρ c, V5_arg4 m ρ c, V5_v15 m ρ c,
    Blocks.final0 (V3 m ρ) c, V3_arg0 m ρ c, V3_arg2 m ρ c, V3_v15 m ρ c]

/-- The run of the kernel's program with its result in the argument arrays alone. -/
theorem kernel_value : θ_run (defs (F := Ideal)) (onTc (τ := τ) (main (F := Ideal))) ⟨m, fun _ => 0, ρ⟩ (fun r => ∀ c : Dev nD,
      r.2.mem ((c.tc : Thread nD τ).loc main_v51)
        = agg128 (m ((c.tc : Thread nD τ).loc main_arg1)) (m ((c.tc : Thread nD τ).loc main_arg5))
            (Cert.Gcn.lin (Cert.Gcn.relu (agg256 (m ((c.tc : Thread nD τ).loc main_arg1)) (m ((c.tc : Thread nD τ).loc main_arg3))
                (Cert.Gcn.lin (m ((c.tc : Thread nD τ).loc main_arg0)) (m ((c.tc : Thread nD τ).loc main_arg2)) (dinvCol (m ((c.tc : Thread nD τ).loc main_arg1))))))
              (m ((c.tc : Thread nD τ).loc main_arg4)) (dinvCol (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_value m ρ c), (h c).2⟩) (run_value (F := Ideal) m ρ)

end Cert.KernelIdeal.Run

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibGcnBridge.lean ====
/-
  One layer's aggregation in its two arrangements, as whole arrays over arbitrary extents.

  `R` edges carry a destination index column `ri` (used by the scatter-add: an edge lands on the row its signed index
  names, or nowhere) and a source index column `ci` (used by the gathers: the signed index clamped into the rows).
  With `dv` the per-node factor, `H` the product of features and weights, and `HK` that product with row `n` already
  scaled by `dv n`:

    the kernel's arrangement   D ⊙ scatter-add (gather HK ci)         with D (n, f) = dv n
    the reference's            scatter-add (gather H ci ⊙ NORM)        with NORM (e, f) = dv (gr e) · dv (source of e)

  are the same array, provided `0 ≤ dv n < ⊤` and the row `gr e` that the reference reads for the destination factor is
  the destination itself whenever the edge lands (`hgr`). At `(n, f)` both are sums over the edges landing on `n`; the
  law is `Cert.Gcn.layer_law`.
-/
import proofs.«155882_j32315333935770_2_alg».proof.Proof.LibGcnLaw
import proofs.«155882_j32315333935770_2_alg».proof.Proof.LibHostIndex
import Idealize.ShloMosaic.PureOps.Ideal.Laws
import Idealize.ShloMosaic.Lib.ValueIdx

noncomputable section

open scoped BigOperators

namespace Cert.Gcn

open Idealize.ShloMosaic Idealize.ShloMosaic.ValueIdx Cert.Lib.HostIndex

/-- The row a gather reads for edge `e`: its index word read signed and clamped into `[0, N − 1]`. -/
def gatherRow {N R w : ℕ} (hN : 0 < N) (idx : IVec ⟨2, ![R, 1]⟩ w) (e : Fin R) : Fin N :=
  ⟨min (idx (ix2 e 0)).toInt.toNat (N - 1), by omega⟩

theorem agg_bridge {N R C w : ℕ} (hN : 0 < N)
    (gdK gdR : GatherDims ⟨2, ![N, C]⟩ ⟨2, ![R, 1]⟩ ⟨2, ![R, C]⟩)
    (hgK : ∃ wf, gdK = rowGatherDims N R C wf) (hgR : ∃ wf, gdR = rowGatherDims N R C wf)
    (sdK sdR : ScatterDims ⟨2, ![N, C]⟩ ⟨2, ![R, 1]⟩ ⟨2, ![R, C]⟩)
    (hsK : ∃ wf, sdK = rowScatterDims N R C wf) (hsR : ∃ wf, sdR = rowScatterDims N R C wf)
    (dv : Fin N → EReal) (h0 : ∀ n, 0 ≤ dv n) (hT : ∀ n, dv n ≠ ⊤)
    (ri ci : IVec ⟨2, ![R, 1]⟩ w) (gr : Fin R → Fin N)
    (hgr : ∀ (e : Fin R) (n : Fin N), (ri (ix2 e 0)).toInt = (n.val : Int) → gr e = n)
    (D ZK ZR : (⟨2, ![N, C]⟩ : Shape).Idx → EReal) (hD : ∀ n f, D (ix2 n f) = dv n)
    (hZK : ∀ i, ZK i = 0) (hZR : ∀ i, ZR i = 0)
    (NORM : (⟨2, ![R, C]⟩ : Shape).Idx → EReal)
    (hNORM : ∀ e f, NORM (ix2 e f) = dv (gr e) * dv (gatherRow hN ci e))
    (H HK : (⟨2, ![N, C]⟩ : Shape).Idx → EReal) (hHK : ∀ n f, HK (ix2 n f) = H (ix2 n f) * dv n)
    (hlt : FTy.bits .bf16 < FTy.bits .f32) :
    mulf (F := Ideal) (φ := .f32) D
        (Host.scatterAdd (F := Ideal) (φ := .f32) sdK ZK ri
          (extf (F := Ideal) (φ := .bf16) .f32 (Host.gather gdK HK ci) hlt))
      = Host.scatterAdd (F := Ideal) (φ := .f32) sdR ZR ri
          (mulf (F := Ideal) (φ := .f32) (Host.gather gdR H ci) NORM) := by
  obtain ⟨wgK, rfl⟩ := hgK
  obtain ⟨wgR, rfl⟩ := hgR
  obtain ⟨wsK, rfl⟩ := hsK
  obtain ⟨wsR, rfl⟩ := hsR
  funext i
  obtain ⟨n, f, rfl⟩ : ∃ (n : Fin N) (f : Fin C), i = ix2 n f := ⟨i 0, i 1, eq_ix2 i⟩
  show D (ix2 n f) * Host.scatterAdd (F := Ideal) (φ := .f32) (rowScatterDims N R C wsK) ZK ri
      (extf (F := Ideal) (φ := .bf16) .f32 (Host.gather (rowGatherDims N R C wgK) HK ci) hlt) (ix2 n f) = _
  rw [show Host.scatterAdd (F := Ideal) (φ := .f32) (rowScatterDims N R C wsK) ZK ri
        (extf (F := Ideal) (φ := .bf16) .f32 (Host.gather (rowGatherDims N R C wgK) HK ci) hlt) (ix2 n f)
        = _ from scatterAdd_rows_apply wsK ZK ri _ n f,
    show Host.scatterAdd (F := Ideal) (φ := .f32) (rowScatterDims N R C wsR) ZR ri
        (mulf (F := Ideal) (φ := .f32) (Host.gather (rowGatherDims N R C wgR) H ci) NORM) (ix2 n f)
        = _ from scatterAdd_rows_apply wsR ZR ri _ n f,
    hD, hZK, hZR]
  have hl : ∀ e : Fin R, extf (F := Ideal) (φ := .bf16) .f32 (Host.gather (rowGatherDims N R C wgK) HK ci) hlt (ix2 e f)
      = H (ix2 (gatherRow hN ci e) f) * dv (gatherRow hN ci e) := fun e => by
    show Host.gather (rowGatherDims N R C wgK) HK ci (ix2 e f) = _
    rw [gather_rows_apply hN wgK HK ci e f]
    exact hHK _ f
  have hr : ∀ e : Fin R, mulf (F := Ideal) (φ := .f32) (Host.gather (rowGatherDims N R C wgR) H ci) NORM (ix2 e f)
      = H (ix2 (gatherRow hN ci e) f) * (dv (gr e) * dv (gatherRow hN ci e)) := fun e => by
    show Host.gather (rowGatherDims N R C wgR) H ci (ix2 e f) * NORM (ix2 e f) = _
    rw [gather_rows_apply hN wgR H ci e f, hNORM]
    rfl
  simp only [hl, hr]
  exact layer_law _ (dv n) 0 rfl (h0 n) (hT n) (fun e => H (ix2 (gatherRow hN ci e) f))
    (fun e => dv (gatherRow hN ci e)) (fun e => dv (gr e))
    (fun e he => by rw [hgr e n (Finset.mem_filter.mp he).2])

end Cert.Gcn

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«155882_j32315333935770_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«155882_j32315333935770_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.GcnLayers.lean ====
/-
  The two layers of the network, kernel arrangement against reference arrangement, as whole arrays.

  For any features `X`, the kernel's layer — the product `X · W` with row `n` scaled by `dinv n`, its source rows gathered
  and summed into their destinations, row `n` scaled by `dinv n` again, the bias added — is the reference's layer — the
  plain product, its source rows gathered, each scaled by `dinv (destination) · dinv (source)`, summed into their
  destinations, the bias added. The hypotheses of `Cert.Gcn.agg_bridge` are read off the host operations here:
  `dinv` is the guarded reciprocal root (so it lies in `[0, ⊤)`), an edge that lands on node `n` has a nonnegative
  destination word, which the index wrap keeps and the clamp sends to `n`, and the broadcasts read their operands'
  rows. The index columns themselves (edge list and self-loops) are the same terms on both sides and are never opened.
-/
import proofs.«155882_j32315333935770_2_alg».proof.Proof.KHostTerms
import proofs.«155882_j32315333935770_2_alg».proof.Proof.RefReadP
import proofs.«155882_j32315333935770_2_alg».proof.Proof.GcnSpec
import proofs.«155882_j32315333935770_2_alg».proof.Proof.LibGcnBridge
import proofs.«155882_j32315333935770_2_alg».proof.Proof.LibScatterDims
import proofs.«155882_j32315333935770_2_alg».proof.Proof.LibRowGatherDims
import proofs.«155882_j32315333935770_2_alg».proof.Proof.LibEdgeReads
import proofs.«155882_j32315333935770_2_alg».proof.Proof.LibPlainDot

noncomputable section

open scoped BigOperators

namespace Cert.Proof.Layers

open Cert.KernelIdeal.HostTerms Idealize.ShloMosaic Idealize.ShloMosaic.ValueIdx Cert.Lib.HostIndex

/-! ## The per-node factor -/

/-- The factor of node `n`. -/
def dv (x1 : Arr Cert.KernelIdeal.S2x320000 .i32) (n : Fin 50000) : EReal := dinvT x1 (ix1 n)

/-- A zero splat reads zero everywhere. -/
theorem zeros_apply {S : Shape} (h : (⟨0, ![]⟩ : Shape).BroadcastsInDim S ![]) (i : S.Idx) :
    broadcastInDim S ![] h (constant (F := Ideal) ⟨0, ![]⟩ .f32 0x00000000#32) i = 0 := by
  unfold broadcastInDim constant
  rw [Ideal.ofBits_def, Ideal.ofBits_zero_f32]

theorem dv_eq (x1 : Arr Cert.KernelIdeal.S2x320000 .i32) (n : Fin 50000) :
    dv x1 n = if 0 < degT x1 (ix1 n) then Ideal.rsqrt (degT x1 (ix1 n)) else 0 := by
  unfold dv dinvT select cmpf Host.rsqrt
  simp only [id]
  rw [zeros_apply, Ideal.cmpf_def, Ideal.hostUnary_rsqrt_def]
  unfold Scalar.select Ideal.cmp
  by_cases h : 0 < degT x1 (ix1 n) <;> simp [h]

theorem dv_nonneg (x1 : Arr Cert.KernelIdeal.S2x320000 .i32) (n : Fin 50000) : 0 ≤ dv x1 n := by
  rw [dv_eq]; exact (Cert.Gcn.guarded_rsqrt_range _).1

theorem dv_ne_top (x1 : Arr Cert.KernelIdeal.S2x320000 .i32) (n : Fin 50000) : dv x1 n ≠ ⊤ := by
  rw [dv_eq]; exact (Cert.Gcn.guarded_rsqrt_range _).2

/-! ## The index columns -/

theorem asCol_apply (v : Arr Cert.KernelIdeal.S370000 .i32) (e : Fin 370000) (u : Fin 1) :
    asCol v (ix2 e u) = v (ix1 e) :=
  Cert.Lib.EdgeReads.column_of_vector_apply v _ e u

/-- The row the reference reads for an edge's destination factor. -/
def gr (x1 : Arr Cert.KernelIdeal.S2x320000 .i32) (e : Fin 370000) : Fin 50000 :=
  Cert.Gcn.gatherRow (N := 50000) (by decide) (asCol (wrapT (rowT x1))) e

/-- An edge that lands on node `n` has `n` as the row read for its destination factor. -/
theorem gr_of_lands (x1 : Arr Cert.KernelIdeal.S2x320000 .i32) (e : Fin 370000) (n : Fin 50000)
    (h : (asCol (rowT x1) (ix2 e 0)).toInt = (n.val : Int)) : gr x1 e = n := by
  apply Fin.ext
  show min ((asCol (wrapT (rowT x1))) (ix2 e 0)).toInt.toNat (50000 - 1) = n.val
  rw [asCol_apply] at h ⊢
  exact Cert.Gcn.wrap_clamp_of_toInt_eq (N := 50000) (by norm_num) (rowT x1 (ix1 e)) n h

/-! ## The broadcasts, read at an index -/

theorem dinvCol_apply (x1 : Arr Cert.KernelIdeal.S2x320000 .i32) (n : Fin 50000) :
    dinvCol x1 (ix2 n (0 : Fin 1)) = dv x1 n :=
  Cert.Lib.EdgeReads.column_of_vector_apply (dinvT x1) _ n 0

theorem dinvMat_apply {C : ℕ} (x1 : Arr Cert.KernelIdeal.S2x320000 .i32)
    (h : (⟨2, ![50000, 1]⟩ : Shape).BroadcastsInDim ⟨2, ![50000, C]⟩ ![0, 1]) (n : Fin 50000) (f : Fin C) :
    broadcastInDim ⟨2, ![50000, C]⟩ ![0, 1] h (dinvCol x1) (ix2 n f) = dv x1 n := by
  rw [Cert.Lib.EdgeReads.column_broadcast_apply (dinvCol x1) h n f, dinvCol_apply]

/-- The reference's per-edge normalisation, a vector over the edges. -/
def normT (x1 : Arr Cert.KernelIdeal.S2x320000 .i32) : Arr Cert.KernelIdeal.S370000 .f32 :=
  mulf (F := Ideal) (φ := .f32)
    (Host.gather Cert.ReferenceIdeal.gather_S50000_S370000x1_S370000_n_0_n_n_0_1_1 (dinvT x1) (asCol (wrapT (rowT x1))))
    (Host.gather Cert.ReferenceIdeal.gather_S50000_S370000x1_S370000_n_0_n_n_0_1_1 (dinvT x1) (asCol (wrapT (colT x1))))

theorem normT_apply (x1 : Arr Cert.KernelIdeal.S2x320000 .i32) (e : Fin 370000) :
    normT x1 (ix1 e) = dv x1 (gr x1 e)
      * dv x1 (Cert.Gcn.gatherRow (N := 50000) (by decide) (asCol (wrapT (colT x1))) e) := by
  unfold normT mulf
  rw [Ideal.mulf_def]
  refine congrArg₂ (· * ·) ?_ ?_
  · exact gather_vec_apply (N := 50000) (R := 370000) (by decide)
      Cert.ReferenceIdeal.gather_S50000_S370000x1_S370000_n_0_n_n_0_1_1.wf (dinvT x1) (asCol (wrapT (rowT x1))) e
  · exact gather_vec_apply (N := 50000) (R := 370000) (by decide)
      Cert.ReferenceIdeal.gather_S50000_S370000x1_S370000_n_0_n_n_0_1_1.wf (dinvT x1) (asCol (wrapT (colT x1))) e

theorem normMat_apply {C : ℕ} (x1 : Arr Cert.KernelIdeal.S2x320000 .i32)
    (h0 : (⟨1, ![370000]⟩ : Shape).BroadcastsInDim ⟨2, ![370000, 1]⟩ ![0])
    (h : (⟨2, ![370000, 1]⟩ : Shape).BroadcastsInDim ⟨2, ![370000, C]⟩ ![0, 1]) (e : Fin 370000) (f : Fin C) :
    broadcastInDim ⟨2, ![370000, C]⟩ ![0, 1] h (broadcastInDim ⟨2, ![370000, 1]⟩ ![0] h0 (normT x1)) (ix2 e f)
      = dv x1 (gr x1 e) * dv x1 (Cert.Gcn.gatherRow (N := 50000) (by decide) (asCol (wrapT (colT x1))) e) := by
  rw [Cert.Lib.EdgeReads.column_broadcast_apply _ h e f, Cert.Lib.EdgeReads.column_of_vector_apply (normT x1) h0 e 0,
    normT_apply]

/-! ## The scaled product against the plain product -/

theorem lin_eq_dot {C : ℕ} (d : DotDims ⟨2, ![50000, 256]⟩ ⟨2, ![256, C]⟩ ⟨2, ![50000, C]⟩)
    (hd : d = DotDims.plain 50000 256 C) (x1 : Arr Cert.KernelIdeal.S2x320000 .i32)
    (X : (⟨2, ![50000, 256]⟩ : Shape).Idx → EReal) (W : (⟨2, ![256, C]⟩ : Shape).Idx → EReal) (n : Fin 50000) (f : Fin C) :
    Cert.Gcn.lin X W (dinvCol x1) (ix2 n f)
      = Host.dotGeneral (F := Ideal) (φ₁ := .f32) (φ₂ := .f32) d none X W (ix2 n f) * dv x1 n := by
  subst hd
  rw [Cert.Gcn.lin_apply, dinvCol_apply]
  show _ = FloatOps.dotGeneral (F := Ideal) (φ₁ := .f32) (φ₂ := .f32) (DotDims.plain 50000 256 C) none .single X W (ix2 n f) * dv x1 n
  rw [Cert.Lib.PlainDot.dotGeneral_apply]
  rfl

/-! ## Layer 1 -/

/-- The reference's first layer on features `X`. -/
def refLayer1 (X : Arr Cert.KernelIdeal.S50000x256 .f32) (x1 : Arr Cert.KernelIdeal.S2x320000 .i32)
    (x2 : Arr Cert.KernelIdeal.S256x256 .f32) (x3 : Arr Cert.KernelIdeal.S256 .f32) : Arr Cert.KernelIdeal.S50000x256 .f32 :=
  addf (Host.scatterAdd (F := Ideal) (φ := .f32) Cert.ReferenceIdeal.scatter_S50000x256_S370000x1_S370000x256_1_0_0_1
      (Cert.ReferenceIdeal.ReadP.val_main_v41 (F := Ideal)) (Cert.ReferenceIdeal.ReadP.val_main_v42 (F := Ideal) x1)
      (mulf (Host.gather Cert.ReferenceIdeal.gather_S50000x256_S370000x1_S370000x256_1_0_n_n_0_1_1256
          (Host.dotGeneral (F := Ideal) (φ₁ := .f32) (φ₂ := .f32) Cert.ReferenceIdeal.dot_S50000x256_S256x256_S50000x256_1_0_0_1_n_n none X x2)
          (Cert.ReferenceIdeal.ReadP.val_main_v36 (F := Ideal) x1))
        (Cert.ReferenceIdeal.ReadP.val_main_v39 (F := Ideal) x1)))
    (Cert.ReferenceIdeal.ReadP.val_main_v45 (F := Ideal) x3)

theorem ref_v46 (x0 : Arr Cert.KernelIdeal.S50000x256 .f32) (x1 : Arr Cert.KernelIdeal.S2x320000 .i32)
    (x2 : Arr Cert.KernelIdeal.S256x256 .f32) (x3 : Arr Cert.KernelIdeal.S256 .f32) :
    Cert.ReferenceIdeal.ReadP.val_main_v46 (F := Ideal) x0 x1 x2 x3 = refLayer1 x0 x1 x2 x3 := rfl

theorem layer1 (X : Arr Cert.KernelIdeal.S50000x256 .f32) (x1 : Arr Cert.KernelIdeal.S2x320000 .i32)
    (x2 : Arr Cert.KernelIdeal.S256x256 .f32) (x3 : Arr Cert.KernelIdeal.S256 .f32) :
    agg256 x1 x3 (Cert.Gcn.lin X x2 (dinvCol x1)) = refLayer1 X x1 x2 x3 := by
  unfold agg256 refLayer1
  refine congrArg₂ (addf (F := Ideal) (φ := .f32)) ?_ rfl
  exact Cert.Gcn.agg_bridge (N := 50000) (R := 370000) (C := 256) (w := 32) (by decide)
    Cert.KernelIdeal.gather_S50000x256_S370000x1_S370000x256_1_0_n_n_0_1_1256
    Cert.ReferenceIdeal.gather_S50000x256_S370000x1_S370000x256_1_0_n_n_0_1_1256
    (eq_rowGatherDims _ rfl rfl rfl rfl rfl rfl rfl) (eq_rowGatherDims _ rfl rfl rfl rfl rfl rfl rfl)
    Cert.KernelIdeal.scatter_S50000x256_S370000x1_S370000x256_1_0_0_1
    Cert.ReferenceIdeal.scatter_S50000x256_S370000x1_S370000x256_1_0_0_1
    (eq_rowScatterDims _ rfl rfl rfl rfl) (eq_rowScatterDims _ rfl rfl rfl rfl)
    (dv x1) (dv_nonneg x1) (dv_ne_top x1) (asCol (rowT x1)) (asCol (wrapT (colT x1))) (gr x1) (gr_of_lands x1)
    _ _ _ (dinvMat_apply x1 _) (zeros_apply _) (zeros_apply _)
    _ (normMat_apply x1 _ _)
    (Host.dotGeneral (F := Ideal) (φ₁ := .f32) (φ₂ := .f32) Cert.ReferenceIdeal.dot_S50000x256_S256x256_S50000x256_1_0_0_1_n_n none X x2)
    (Cert.Gcn.lin X x2 (dinvCol x1)) (lin_eq_dot _ rfl x1 X x2) _

/-! ## Layer 2 -/

/-- The reference's second layer on features `X`. -/
def refLayer2 (X : Arr Cert.KernelIdeal.S50000x256 .f32) (x1 : Arr Cert.KernelIdeal.S2x320000 .i32)
    (x4 : Arr Cert.KernelIdeal.S256x128 .f32) (x5 : Arr Cert.KernelIdeal.S128 .f32) : Arr Cert.KernelIdeal.S50000x128 .f32 :=
  addf (Host.scatterAdd (F := Ideal) (φ := .f32) Cert.ReferenceIdeal.scatter_S50000x128_S370000x1_S370000x128_1_0_0_1
      (Cert.ReferenceIdeal.ReadP.val_main_v89 (F := Ideal)) (Cert.ReferenceIdeal.ReadP.val_main_v90 (F := Ideal) x1)
      (mulf (Host.gather Cert.ReferenceIdeal.gather_S50000x128_S370000x1_S370000x128_1_0_n_n_0_1_1128
          (Host.dotGeneral (F := Ideal) (φ₁ := .f32) (φ₂ := .f32) Cert.ReferenceIdeal.dot_S50000x256_S256x128_S50000x128_1_0_0_1_n_n none X x4)
          (Cert.ReferenceIdeal.ReadP.val_main_v84 (F := Ideal) x1))
        (Cert.ReferenceIdeal.ReadP.val_main_v87 (F := Ideal) x1)))
    (Cert.ReferenceIdeal.ReadP.val_main_v93 (F := Ideal) x5)

theorem ref_v94 (x0 : Arr Cert.KernelIdeal.S50000x256 .f32) (x1 : Arr Cert.KernelIdeal.S2x320000 .i32)
    (x2 : Arr Cert.KernelIdeal.S256x256 .f32) (x3 : Arr Cert.KernelIdeal.S256 .f32)
    (x4 : Arr Cert.KernelIdeal.S256x128 .f32) (x5 : Arr Cert.KernelIdeal.S128 .f32) :
    Cert.ReferenceIdeal.ReadP.val_main_v94 (F := Ideal) x0 x1 x2 x3 x4 x5
      = refLayer2 (maximumf (F := Ideal) (φ := .f32) (Cert.ReferenceIdeal.ReadP.val_main_v46 (F := Ideal) x0 x1 x2 x3) (Cert.ReferenceIdeal.ReadP.val_main_call1_v0 (F := Ideal))) x1 x4 x5 := rfl

theorem layer2 (X : Arr Cert.KernelIdeal.S50000x256 .f32) (x1 : Arr Cert.KernelIdeal.S2x320000 .i32)
    (x4 : Arr Cert.KernelIdeal.S256x128 .f32) (x5 : Arr Cert.KernelIdeal.S128 .f32) :
    agg128 x1 x5 (Cert.Gcn.lin X x4 (dinvCol x1)) = refLayer2 X x1 x4 x5 := by
  unfold agg128 refLayer2
  refine congrArg₂ (addf (F := Ideal) (φ := .f32)) ?_ rfl
  exact Cert.Gcn.agg_bridge (N := 50000) (R := 370000) (C := 128) (w := 32) (by decide)
    Cert.KernelIdeal.gather_S50000x128_S370000x1_S370000x128_1_0_n_n_0_1_1128
    Cert.ReferenceIdeal.gather_S50000x128_S370000x1_S370000x128_1_0_n_n_0_1_1128
    (eq_rowGatherDims _ rfl rfl rfl rfl rfl rfl rfl) (eq_rowGatherDims _ rfl rfl rfl rfl rfl rfl rfl)
    Cert.KernelIdeal.scatter_S50000x128_S370000x1_S370000x128_1_0_0_1
    Cert.ReferenceIdeal.scatter_S50000x128_S370000x1_S370000x128_1_0_0_1
    (eq_rowScatterDims _ rfl rfl rfl rfl) (eq_rowScatterDims _ rfl rfl rfl rfl)
    (dv x1) (dv_nonneg x1) (dv_ne_top x1) (asCol (rowT x1)) (asCol (wrapT (colT x1))) (gr x1) (gr_of_lands x1)
    _ _ _ (dinvMat_apply x1 _) (zeros_apply _) (zeros_apply _)
    _ (normMat_apply x1 _ _)
    (Host.dotGeneral (F := Ideal) (φ₁ := .f32) (φ₂ := .f32) Cert.ReferenceIdeal.dot_S50000x256_S256x128_S50000x128_1_0_0_1_n_n none X x4)
    (Cert.Gcn.lin X x4 (dinvCol x1)) (lin_eq_dot _ rfl x1 X x4) _

/-! ## The network -/

/-- The maximum with zero is the reference's `relu`: the maximum with a zero splat. -/
theorem relu_eq (Y : Arr Cert.KernelIdeal.S50000x256 .f32) :
    Cert.Gcn.relu Y = maximumf (F := Ideal) (φ := .f32) Y (Cert.ReferenceIdeal.ReadP.val_main_call1_v0 (F := Ideal)) := by
  funext i
  show max (Y i) 0 = max (Y i) (Ideal.ofBits .f32 0x00000000#32)
  rw [Ideal.ofBits_zero_f32]

/-- THE TWO PROGRAMS' RESULTS ARE ONE ARRAY: the kernel's two layers (each its scaled product aggregated) against the
    reference's composed term. -/
theorem kernel_eq_ref (x0 : Arr Cert.KernelIdeal.S50000x256 .f32) (x1 : Arr Cert.KernelIdeal.S2x320000 .i32)
    (x2 : Arr Cert.KernelIdeal.S256x256 .f32) (x3 : Arr Cert.KernelIdeal.S256 .f32)
    (x4 : Arr Cert.KernelIdeal.S256x128 .f32) (x5 : Arr Cert.KernelIdeal.S128 .f32) :
    agg128 x1 x5 (Cert.Gcn.lin (Cert.Gcn.relu (agg256 x1 x3 (Cert.Gcn.lin x0 x2 (dinvCol x1)))) x4 (dinvCol x1))
      = Cert.ReferenceIdeal.ReadP.val_main_v94 (F := Ideal) x0 x1 x2 x3 x4 x5 := by
  rw [layer1, relu_eq, layer2, ref_v94, ref_v46]

end Cert.Proof.Layers

end
-- ==== Proof.lean ====
/-
  A two-layer graph convolution: the kernel's program against the reference, equal at the ideal values.

  Both programs build, from the edge list with one self-loop per node appended, the destination column `row`, the source
  column `col`, the degree `deg n` = the number of edges into `n`, and the factor `dinv n` = `1 / √(deg n)` where the degree
  is positive and `0` elsewhere. One layer, on features `X`, weights `W` and bias `b`, is

    reference   out (n, f) = ∑ over the edges e into n of (X · W) (col e, f) · (dinv (row e) · dinv (col e))  +  b f
    kernel      out (n, f) = dinv n · ∑ over the edges e into n of ((X · W) (col e, f) · dinv (col e))        +  b f

  where the kernel's matrix-product region already scales row `p` of `X · W` by `dinv p` (and, in the second layer, takes
  the maximum of `X` with zero first, which is the reference's `relu` between the layers). An edge lands on `n` exactly
  when its destination word, read signed, is `n`; such a word is not negative, so the reference's gather of
  `dinv (row e)` (index wrapped where negative, then clamped) reads `dinv n`. Since `0 ≤ dinv n < ⊤`, the factor
  distributes over the sum on all extended reals, so the two layers agree for ANY features, finite or not, and the
  network agrees layer by layer; the precondition is never opened.

  The pieces: the two regions' output arrays as whole-array functions (Proof/KBlocks0, Proof/KBlocks1), the kernel
  program's run with its result named and walked back through the host stretches (Proof/KRun, Proof/KFold,
  Proof/KValue), the host stretches as terms (Proof/KHostTerms), the algebra (Proof/LibGcnLaw, Proof/LibGcnBridge) and the
  two layers against the reference's stages (Proof/GcnLayers). The reference's run and its stages are the modules
  Proof/RefRunP and Proof/RefReadP. The three frames are the generated ones; the idealization rewrote nothing.
-/
import proofs.«155882_j32315333935770_2_alg».proof.Defs
import proofs.«155882_j32315333935770_2_alg».proof.Proof.Gen.Kernel
import proofs.«155882_j32315333935770_2_alg».proof.Proof.Gen.Kernel.Skeleton
import proofs.«155882_j32315333935770_2_alg».proof.Proof.Gen.Kernel.Launch
import proofs.«155882_j32315333935770_2_alg».proof.Proof.Gen.Kernel.Points
import proofs.«155882_j32315333935770_2_alg».proof.Proof.Gen.Kernel.Frame
import proofs.«155882_j32315333935770_2_alg».proof.Proof.Gen.KernelIdeal
import proofs.«155882_j32315333935770_2_alg».proof.Proof.Gen.KernelIdeal.Skeleton
import proofs.«155882_j32315333935770_2_alg».proof.Proof.Gen.KernelIdeal.Launch
import proofs.«155882_j32315333935770_2_alg».proof.Proof.Gen.KernelIdeal.Points
import proofs.«155882_j32315333935770_2_alg».proof.Proof.Gen.KernelIdeal.Frame
import proofs.«155882_j32315333935770_2_alg».proof.Proof.Gen.ReferenceIdeal
import proofs.«155882_j32315333935770_2_alg».proof.Proof.Gen.Pre_finite_inputs
import proofs.«155882_j32315333935770_2_alg».proof.Proof.RefRunP
import proofs.«155882_j32315333935770_2_alg».proof.Proof.RefReadP
import proofs.«155882_j32315333935770_2_alg».proof.Proof.KValue
import proofs.«155882_j32315333935770_2_alg».proof.Proof.GcnLayers
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with one result: the kernel's two aggregated layers are the
    reference's composed term (`Cert.Proof.Layers.kernel_eq_ref`). -/
theorem algebraic : Cert.algebraic_KernelIdeal_ReferenceIdeal := by
  intro m ρ m' ρ' _ hagree
  refine ⟨_, Cert.KernelIdeal.Run.kernel_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]
  exact (Cert.Proof.Layers.kernel_eq_ref _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
